-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S16x128 : Shape := ⟨2, ![16, 128]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S128 .f32) (main_arg16 : FVec F S16x128 .f32) (main_arg17 : FVec F S16 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S16x128 .f32 := Host.absf main_arg16
  let main_cst_28 : FVec F S_ .f32 := constant S_ .f32 0x7F800000#32
  let main_v75 : FVec F S16x128 .f32 := broadcastInDim S16x128 ![] bcast_S_S16x128 main_cst_28
  let main_v76 : IVec S16x128 1 := cmpf .olt main_v74 main_v75
  let main_c_29 : IVec S_ 1 := constantI S_ 1 1#1
  let main_v77 : IVec S_ 1 := (fun x v => Host.reduce IntOp.andi x v reducesTo_S16x128_S_d0_1 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg12 : FVec F S128 .f32) (main_arg13 : FVec F S128x128 .f32) (main_arg14 : FVec F S128x256 .f32) (main_arg15 : FVec F S128 .f32) (main_arg16 : FVec F S16x128 .f32) (main_arg17 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x256 .f32) (main_arg15 : FVec F S128 .f32) (main_arg16 : FVec F S16x128 .f32) (main_arg17 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x256 .f32) (main_arg15 : FVec F S128 .f32) (main_arg16 : FVec F S16x128 .f32) (main_arg17 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x256 .f32) (main_arg15 : FVec F S128 .f32) (main_arg16 : FVec F S16x128 .f32) (main_arg17 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S1x16 : Shape := ⟨2, ![1, 16]⟩
abbrev S100000x16 : Shape := ⟨2, ![100000, 16]⟩
abbrev S2000x16 : Shape := ⟨2, ![2000, 16]⟩
abbrev S128x16 : Shape := ⟨2, ![128, 16]⟩

abbrev nBuf : Space → Nat
  | .hbm => 94
  | .vmem => 55
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x256, .f32⟩
  | .hbm, ⟨15, _⟩ => ⟨S128, .f32⟩
  | .hbm, ⟨16, _⟩ => ⟨S16x128, .f32⟩
  | .hbm, ⟨17, _⟩ => ⟨S16, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S128x128, .f32⟩
  | .hbm, ⟨90, _⟩ => ⟨S128x128, .f32⟩
  | .hbm, ⟨91, _⟩ => ⟨S1x128, .f32⟩
  | .hbm, ⟨92, _⟩ => ⟨S1x16, .f32⟩
  | .hbm, ⟨93, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S16x128, .f32⟩
  | .local _ .vmem, ⟨52, _⟩ => ⟨S1x16, .f32⟩
  | .local _ .vmem, ⟨53, _⟩ => ⟨S2000x16, .f32⟩
  | .local _ .vmem, ⟨54, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x16 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S128x256_S128x128_0_0 : S128x256.Slices ![0, 0] S128x128
  slices_S128x256_S128x128_0_128 : S128x256.Slices ![0, 128] S128x128
  shapeCasts_S16_S1x16 : S16.ShapeCasts S1x16
  shapeCasts_S128x128_S128x128 : S128x128.ShapeCasts S128x128
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x128.size a ≤ S16x128.size a
  hwx4_5 : ∀ i : grid4.Coords, EltTy.bits .f32 = 32 ∨ (Rect.block (s := S16x128) S16x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x16.size a ≤ S100000x16.size a
  hwx4_7 : ∀ i : grid4.Coords, EltTy.bits .f32 = 32 ∨ (Rect.block (s := S100000x16) S2000x16.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v32) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S16x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v61) S2000x16.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x256 : Shape := ⟨2, ![100000, 256]⟩
abbrev S256x128 : Shape := ⟨2, ![256, 128]⟩
abbrev S128x16 : Shape := ⟨2, ![128, 16]⟩
abbrev S100000x16 : Shape := ⟨2, ![100000, 16]⟩
abbrev S1x16 : Shape := ⟨2, ![1, 16]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x256, .f32⟩
  | 15 => ⟨S128, .f32⟩
  | 16 => ⟨S16x128, .f32⟩
  | 17 => ⟨S16, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S128x128, .f32⟩
  | 48 => ⟨S100000x128, .f32⟩
  | 49 => ⟨S1x128, .f32⟩
  | 50 => ⟨S100000x128, .f32⟩
  | 51 => ⟨S100000x128, .f32⟩
  | 52 => ⟨S128x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S128x128, .f32⟩
  | 84 => ⟨S100000x128, .f32⟩
  | 85 => ⟨S1x128, .f32⟩
  | 86 => ⟨S100000x128, .f32⟩
  | 87 => ⟨S100000x128, .f32⟩
  | 88 => ⟨S128x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S128x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S128x128, .f32⟩
  | 30 => ⟨S100000x128, .f32⟩
  | 31 => ⟨S100000x128, .f32⟩
  | 32 => ⟨S100000x256, .f32⟩
  | 33 => ⟨S256x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S128x16, .f32⟩
  | 42 => ⟨S100000x16, .f32⟩
  | 43 => ⟨S1x16, .f32⟩
  | 44 => ⟨S100000x16, .f32⟩
  | 45 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call0_cst : Ref sig .tc := ⟨.hbm, 55, rfl⟩
abbrev main_call0_v0 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call1_cst : Ref sig .tc := ⟨.hbm, 124, rfl⟩
abbrev main_call1_v0 : Ref sig .tc := ⟨.hbm, 125, rfl⟩
abbrev main_v86 : Ref sig .tc := ⟨.hbm, 126, rfl⟩
abbrev main_c_16 : Ref sig .tc := ⟨.hbm, 127, rfl⟩
abbrev main_v87 : Ref sig .tc := ⟨.hbm, 128, rfl⟩
abbrev main_v88 : Ref sig .tc := ⟨.hbm, 129, rfl⟩
abbrev main_c_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_18 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_19 : Ref sig .tc := ⟨.hbm, 140, rfl⟩
abbrev main_v97 : Ref sig .tc := ⟨.hbm, 141, rfl⟩
abbrev main_cst_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call2_cst : Ref sig .tc := ⟨.hbm, 166, rfl⟩
abbrev main_call2_v0 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.GraphNetSpec.lean ====
/-
  A two-branch graph network over the extended reals, written twice.

  One convolution layer takes, per node `r`, the sum `S r` of its in-neighbours' features, the
  in-degree `cnt r`, the node's own features `X r`, and returns
      mean r · Wlᵀ + bl + X r · Wrᵀ,      mean r = S r / max (cnt r) 1.
  The first arrangement scales the sum by the RECIPROCAL `1 / max (cnt r) 1` and adds the bias last;
  the second DIVIDES and adds the bias between the two products.  The divisor is at least one, so it
  is never zero, and off zero a quotient of extended reals is by definition the product with the
  inverse: `s · (1 / c) = s · c⁻¹ = s / c` for EVERY extended real `s` and every `c ≠ 0`, the infinite
  ones included.  Addition of extended reals is commutative and associative, so moving the bias is
  free.  No entry has to be finite for either step.

  The classifier head multiplies the two branches, joined side by side into 256 columns, by a
  128 × 256 matrix; the other arrangement multiplies each branch by its own half of that matrix and
  adds.  A sum over 256 = 128 + 128 columns is the sum over the first 128 plus the sum over the last
  128, in any commutative additive monoid.
-/
import Idealize.ShloMosaic.PureOps.Ideal
import Idealize.ShloMosaic.PureOps.Ideal.Laws
import Idealize.ShloMosaic.Lib.IdealHost
import Idealize.ShloMosaic.Lib.ValueIdx

noncomputable section

namespace Cert.GraphNet

open Idealize.ShloMosaic Idealize.ShloMosaic.ValueIdx

/-! ## Arrays and their rows -/

/-- A two-axis array of extended reals. -/
abbrev Arr (a b : ℕ) : Type := (⟨2, ![a, b]⟩ : Shape).Idx → EReal

/-- An array as a function of row and column. -/
def rows {a b : ℕ} (X : Arr a b) (r : Fin a) (k : Fin b) : EReal := X (ix2 r k)

/-- A one-column array as a function of the row. -/
def col {a : ℕ} (C : Arr a 1) (r : Fin a) : EReal := C (ix2 r (0 : Fin 1))

/-- A one-row array as a function of the column. -/
def row {b : ℕ} (B : Arr 1 b) (j : Fin b) : EReal := B (ix2 (0 : Fin 1) j)

/-- A function of row and column as an array. -/
def ofRows {a b : ℕ} (f : Fin a → Fin b → EReal) : Arr a b := fun i => f (i 0) (i 1)

theorem ofRows_ix2 {a b : ℕ} (f : Fin a → Fin b → EReal) (r : Fin a) (j : Fin b) : ofRows f (ix2 r j) = f r j := rfl

/-- Off zero, scaling by the reciprocal is dividing: both are the product with the inverse. -/
theorem mul_one_div (s c : EReal) (hc : c ≠ 0) : s * Ideal.div 1 c = Ideal.div s c := by
  unfold Ideal.div
  rw [if_neg hc, if_neg hc, one_mul]

/-- A degree clamped below by one is not zero. -/
theorem max_one_ne_zero (x : EReal) : max x 1 ≠ 0 :=
  ne_of_gt (lt_of_lt_of_le (by exact_mod_cast (zero_lt_one : (0 : ℝ) < 1)) (le_max_right x 1))

variable {n : ℕ}

/-- One layer, the neighbour sums scaled by the reciprocal degree, the bias added last. -/
def layerRecip (S : Fin n → Fin 128 → EReal) (cnt : Fin n → EReal) (X : Fin n → Fin 128 → EReal)
    (Wl : Fin 128 → Fin 128 → EReal) (bl : Fin 128 → EReal) (Wr : Fin 128 → Fin 128 → EReal)
    (r : Fin n) (j : Fin 128) : EReal :=
  (∑ k : Fin 128, S r k * Ideal.div 1 (max (cnt r) 1) * Wl j k) + (∑ k : Fin 128, X r k * Wr j k) + bl j

/-- One layer, the neighbour sums divided by the degree, the bias added between the products. -/
def layerQuot (S : Fin n → Fin 128 → EReal) (cnt : Fin n → EReal) (X : Fin n → Fin 128 → EReal)
    (Wl : Fin 128 → Fin 128 → EReal) (bl : Fin 128 → EReal) (Wr : Fin 128 → Fin 128 → EReal)
    (r : Fin n) (j : Fin 128) : EReal :=
  (∑ k : Fin 128, Ideal.div (S r k) (max (cnt r) 1) * Wl j k) + bl j + (∑ k : Fin 128, X r k * Wr j k)

/-- The two arrangements of a layer are one function. -/
theorem layerRecip_eq_layerQuot (S : Fin n → Fin 128 → EReal) (cnt : Fin n → EReal) (X : Fin n → Fin 128 → EReal)
    (Wl : Fin 128 → Fin 128 → EReal) (bl : Fin 128 → EReal) (Wr : Fin 128 → Fin 128 → EReal) :
    layerRecip S cnt X Wl bl Wr = layerQuot S cnt X Wl bl Wr := by
  funext r j
  unfold layerRecip layerQuot
  rw [add_right_comm]
  refine congrArg (· + ∑ k : Fin 128, X r k * Wr j k) (congrArg (· + bl j) ?_)
  exact Finset.sum_congr rfl fun k _ => by rw [mul_one_div _ _ (max_one_ne_zero _)]

/-- A layer's output row depends only on that row of the sums, of the degrees and of the features:
    two layers whose inputs agree on a row (of possibly different heights) agree on it. -/
theorem layerRecip_congr_row {n' : ℕ} {S : Fin n → Fin 128 → EReal} {S' : Fin n' → Fin 128 → EReal}
    {cnt : Fin n → EReal} {cnt' : Fin n' → EReal} {X : Fin n → Fin 128 → EReal} {X' : Fin n' → Fin 128 → EReal}
    {Wl Wl' : Fin 128 → Fin 128 → EReal} {bl bl' : Fin 128 → EReal} {Wr Wr' : Fin 128 → Fin 128 → EReal}
    (r : Fin n) (r' : Fin n') (j : Fin 128)
    (hS : ∀ k, S r k = S' r' k) (hc : cnt r = cnt' r') (hX : ∀ k, X r k = X' r' k)
    (hWl : ∀ k, Wl j k = Wl' j k) (hb : bl j = bl' j) (hWr : ∀ k, Wr j k = Wr' j k) :
    layerRecip S cnt X Wl bl Wr r j = layerRecip S' cnt' X' Wl' bl' Wr' r' j := by
  unfold layerRecip
  rw [hc, hb]
  refine congrArg₂ (· + ·) (congrArg₂ (· + ·) (Finset.sum_congr rfl fun k _ => ?_) (Finset.sum_congr rfl fun k _ => ?_)) rfl
  · rw [hS k, hWl k]
  · rw [hX k, hWr k]

/-- The rectifier, entry by entry. -/
def relu (f : Fin n → Fin 128 → EReal) (r : Fin n) (j : Fin 128) : EReal := max (f r j) 0

/-- Two 128-column arrays side by side. -/
def joinCols (L G : Fin n → Fin 128 → EReal) (r : Fin n) (q : Fin 256) : EReal :=
  if h : q.val < 128 then L r ⟨q.val, h⟩ else G r ⟨q.val - 128, by have := q.isLt; omega⟩

/-- The head over the joined branches: one 256-column product, rectifier, a 128-column product. -/
def headJoined (C : Fin n → Fin 256 → EReal) (W1 : Fin 128 → Fin 256 → EReal) (b1 : Fin 128 → EReal)
    (W2 : Fin 16 → Fin 128 → EReal) (b2 : Fin 16 → EReal) (r : Fin n) (o : Fin 16) : EReal :=
  (∑ k : Fin 128, max ((∑ q : Fin 256, C r q * W1 k q) + b1 k) 0 * W2 o k) + b2 o

/-- The head over the two branches apart, each against its own 128-column matrix. -/
def headTwo (L G : Fin n → Fin 128 → EReal) (Wa Wb : Fin 128 → Fin 128 → EReal) (b1 : Fin 128 → EReal)
    (W2 : Fin 16 → Fin 128 → EReal) (b2 : Fin 16 → EReal) (r : Fin n) (o : Fin 16) : EReal :=
  (∑ k : Fin 128, max ((∑ q : Fin 128, L r q * Wa k q) + (∑ q : Fin 128, G r q * Wb k q) + b1 k) 0 * W2 o k) + b2 o

/-- The head's output row depends only on that row of the two branches. -/
theorem headTwo_congr_row {n' : ℕ} {L G : Fin n → Fin 128 → EReal} {L' G' : Fin n' → Fin 128 → EReal}
    {Wa Wa' Wb Wb' : Fin 128 → Fin 128 → EReal} {b1 b1' : Fin 128 → EReal} {W2 W2' : Fin 16 → Fin 128 → EReal}
    {b2 b2' : Fin 16 → EReal} (r : Fin n) (r' : Fin n') (o : Fin 16)
    (hL : ∀ q, L r q = L' r' q) (hG : ∀ q, G r q = G' r' q) (hWa : ∀ k q, Wa k q = Wa' k q) (hWb : ∀ k q, Wb k q = Wb' k q)
    (hb1 : ∀ k, b1 k = b1' k) (hW2 : ∀ k, W2 o k = W2' o k) (hb2 : b2 o = b2' o) :
    headTwo L G Wa Wb b1 W2 b2 r o = headTwo L' G' Wa' Wb' b1' W2' b2' r' o := by
  unfold headTwo
  rw [hb2]
  refine congrArg (· + b2' o) (Finset.sum_congr rfl fun k _ => ?_)
  rw [hb1 k, hW2 k]
  refine congrArg (fun y => max (y + b1' k) 0 * W2' o k) (congrArg₂ (· + ·) (Finset.sum_congr rfl fun q _ => ?_) (Finset.sum_congr rfl fun q _ => ?_))
  · rw [hL q, hWa k q]
  · rw [hG q, hWb k q]

/-- The left 128 columns of a 128 × 256 matrix. -/
def leftHalf (W1 : Fin 128 → Fin 256 → EReal) (k : Fin 128) (q : Fin 128) : EReal :=
  W1 k ⟨q.val, by have := q.isLt; omega⟩

/-- Its right 128 columns. -/
def rightHalf (W1 : Fin 128 → Fin 256 → EReal) (k : Fin 128) (q : Fin 128) : EReal :=
  W1 k ⟨128 + q.val, by have := q.isLt; omega⟩

/-- A sum over the 256 joined columns is the sum over the left 128 plus the sum over the right 128. -/
theorem sum_joinCols (L G : Fin n → Fin 128 → EReal) (W : Fin 256 → EReal) (r : Fin n) :
    (∑ q : Fin 256, joinCols L G r q * W q)
      = (∑ q : Fin 128, L r q * W ⟨q.val, by have := q.isLt; omega⟩)
        + (∑ q : Fin 128, G r q * W ⟨128 + q.val, by have := q.isLt; omega⟩) := by
  refine (Fin.sum_univ_add (a := 128) (b := 128) (fun q : Fin (128 + 128) => joinCols L G r q * W q)).trans ?_
  refine congrArg₂ (· + ·) (Finset.sum_congr rfl fun q _ => ?_) (Finset.sum_congr rfl fun q _ => ?_)
  · have hq : (Fin.castAdd 128 q : Fin (128 + 128)).val < 128 := q.isLt
    show joinCols L G r (Fin.castAdd 128 q) * W (Fin.castAdd 128 q) = _
    unfold joinCols
    rw [dif_pos hq]
    rfl
  · have hq : ¬ (Fin.natAdd 128 q : Fin (128 + 128)).val < 128 := by simp [Fin.natAdd]
    show joinCols L G r (Fin.natAdd 128 q) * W (Fin.natAdd 128 q) = _
    unfold joinCols
    rw [dif_neg hq]
    refine congrArg₂ (· * ·) (congrArg (G r) (Fin.ext ?_)) rfl
    show 128 + q.val - 128 = q.val
    omega

/-- The two arrangements of the head are one function. -/
theorem headJoined_eq_headTwo (L G : Fin n → Fin 128 → EReal) (W1 : Fin 128 → Fin 256 → EReal) (b1 : Fin 128 → EReal)
    (W2 : Fin 16 → Fin 128 → EReal) (b2 : Fin 16 → EReal) :
    headJoined (joinCols L G) W1 b1 W2 b2 = headTwo L G (leftHalf W1) (rightHalf W1) b1 W2 b2 := by
  funext r o
  unfold headJoined headTwo
  refine congrArg (· + b2 o) (Finset.sum_congr rfl fun k _ => ?_)
  rw [sum_joinCols L G (W1 k) r]
  rfl

end Cert.GraphNet

end
-- ==== Proof.LibColumnBroadcast.lean ====
/-
  A column read back from its broadcast.
-/
import Idealize.ShloMosaic.Lib.Pipeline.Value
import Idealize.ShloMosaic.Lib.ValueIdx

namespace Cert.LibColumnBroadcast

open Idealize.ShloMosaic Idealize.ShloMosaic.ValueIdx

/-- An `[a, 1]` column broadcast to `[a, b]` reads, at `(p, c)`, the column's entry of row `p`:
    the unit axis contributes coordinate zero, the long axis its own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnBroadcast
-- ==== Proof.DenseBlock.lean ====
/-
  What one grid point stores, entry by entry.

  A layer's body loads a 2000-row block of the neighbour sums, of the degrees (one column) and of
  the features, the two 128 × 128 matrices and the bias row, and stores
      (sums · (1 / max degree 1)) · Wlᵀ + features · Wrᵀ + bias          (rectified in the first layer of a branch).
  A product against a transposed matrix, read at entry `(p, q)`, is the sum over `k` of the left
  operand's `(p, k)` times the untransposed matrix's `(q, k)`: the contraction index is the one
  coordinate of the contracted axis.  A change of float format is the identity on extended reals,
  and the one-column and one-row broadcasts read their only column and row.  So entry `(p, q)` of
  the stored block is the layer's row function of row `p` of the loaded blocks.  The head's body
  is the same reading twice over: two products summed, bias, rectifier, then a product with the
  16 × 128 matrix and the last bias.
-/
import proofs.«104871_j37958920962736_2_alg».proof.Proof.Gen.KernelIdeal.Skeleton
import proofs.«104871_j37958920962736_2_alg».proof.Proof.GraphNetSpec
import proofs.«104871_j37958920962736_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.DenseBlock

open Cert.KernelIdeal Cert.KernelIdeal.Gen Idealize.ShloMosaic Idealize.ShloMosaic.ValueIdx

/-! ## The two products' operand indices -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem lhsB_0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhsB_1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhsB_0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhsB_1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-! ## A product against a transposed matrix, at an entry -/

/-- A 2000 × 128 block times the transpose of a 128 × 128 matrix: entry `(p, q)` is `∑ₖ A[p,k] · W[q,k]`. -/
theorem mulTA_apply (A : FVec Ideal S2000x128 .bf16) (W : FVec Ideal S128x128 .bf16) (p : Fin 2000) (q : Fin 128) :
    matmul dot_S2000x128_S128x128_S2000x128_1_0_0_1_n_n none A (transpose S128x128 [1, 0] W transposes_S128x128_p1_0_S128x128) (constant S2000x128 .f32 0x00000000#32) (ix2 p q)
      = ∑ k : Fin 128, A (ix2 p k) * W (ix2 q k) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er, transpose_ix2_apply]

/-- A 2000 × 128 block times the transpose of a 16 × 128 matrix: entry `(p, q)` is `∑ₖ A[p,k] · W[q,k]`. -/
theorem mulTB_apply (A : FVec Ideal S2000x128 .bf16) (W : FVec Ideal S16x128 .bf16) (p : Fin 2000) (q : Fin 16) :
    matmul dot_S2000x128_S128x16_S2000x16_1_0_0_1_n_n none A (transpose S128x16 [1, 0] W transposes_S16x128_p1_0_S128x16) (constant S2000x16 .f32 0x00000000#32) (ix2 p q)
      = ∑ k : Fin 128, A (ix2 p k) * W (ix2 q k) := by
  simp only [matmul]
  rw [Ideal.matmul_constant_zero_apply, ← Equiv.sum_comp (contrEquiv1 dot_S2000x128_S128x16_S2000x16_1_0_0_1_n_n 128 rfl rfl).symm]
  refine Finset.sum_congr rfl fun k _ => ?_
  have hk := contrEquiv1_symm_val dot_S2000x128_S128x16_S2000x16_1_0_0_1_n_n 128 rfl rfl k
  have el : dot_S2000x128_S128x16_S2000x16_1_0_0_1_n_n.lhsIdx (ix2 p q) ((contrEquiv1 dot_S2000x128_S128x16_S2000x16_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x16_S2000x16_1_0_0_1_n_n.rhsIdx (ix2 p q) ((contrEquiv1 dot_S2000x128_S128x16_S2000x16_1_0_0_1_n_n 128 rfl rfl).symm k) = ix2 k q := funext fun a => Fin.ext (by
    match a with
    | ⟨0, _⟩ => exact (rhsB_0 _ _).trans hk
    | ⟨1, _⟩ => exact rhsB_1 _ _)
  rw [el, er, transpose_ix2_apply]

/-! ## The stored blocks -/

/-- Region 0's stored block, entry `(p, q)`: the layer's row function of the loaded blocks, rectified. -/
theorem pay0_apply (v0 : Vec Ideal S2000x1 .f32) (v6 v11 : Vec Ideal S2000x128 .f32) (v13 v15 : Vec Ideal S128x128 .f32)
    (v22 : Vec Ideal S1x128 .f32) (p : Fin 2000) (q : Fin 128) :
    k0_pay1 v0 v6 v11 v13 v15 v22 (ix2 p q)
      = max (GraphNet.layerRecip (fun r k => v6 (ix2 r k)) (fun r => v0 (ix2 r (0 : Fin 1))) (fun r k => v11 (ix2 r k))
          (fun j k => v13 (ix2 j k)) (fun j => v22 (ix2 (0 : Fin 1) j)) (fun j k => v15 (ix2 j k)) p q) 0 := by
  unfold k0_pay1 GraphNet.layerRecip
  simp only [maximumf_apply, addf_apply, broadcast_apply, shapeCast_self, broadcastTo_1b_ab_apply, Ideal.ofBits_def,
    Ideal.ofBits_zero_f32]
  rw [mulTA_apply, mulTA_apply]
  simp only [truncf_apply, mulf_apply, divf_apply, maximumf_apply, broadcast_apply,
    LibColumnBroadcast.broadcastTo_a1_ab_apply, Ideal.ofBits_def, Ideal.ofBits_one_f32]

/-- Region 1's stored block, entry `(p, q)`: the layer's row function of the loaded blocks. -/
theorem pay1_apply (v0 : Vec Ideal S2000x1 .f32) (v6 v11 : Vec Ideal S2000x128 .f32) (v14 v16 : Vec Ideal S128x128 .f32)
    (v23 : Vec Ideal S1x128 .f32) (p : Fin 2000) (q : Fin 128) :
    k1_pay1 v0 v6 v11 v14 v16 v23 (ix2 p q)
      = GraphNet.layerRecip (fun r k => v6 (ix2 r k)) (fun r => v0 (ix2 r (0 : Fin 1))) (fun r k => v11 (ix2 r k))
          (fun j k => v14 (ix2 j k)) (fun j => v23 (ix2 (0 : Fin 1) j)) (fun j k => v16 (ix2 j k)) p q := by
  unfold k1_pay1 GraphNet.layerRecip
  simp only [maximumf_apply, addf_apply, broadcast_apply, shapeCast_self, broadcastTo_1b_ab_apply, Ideal.ofBits_def,
    Ideal.ofBits_zero_f32]
  rw [mulTA_apply, mulTA_apply]
  simp only [truncf_apply, mulf_apply, divf_apply, maximumf_apply, broadcast_apply,
    LibColumnBroadcast.broadcastTo_a1_ab_apply, Ideal.ofBits_def, Ideal.ofBits_one_f32]

/-- Region 2's stored block, entry `(p, q)`: the layer's row function of the loaded blocks, rectified. -/
theorem pay2_apply (v0 : Vec Ideal S2000x1 .f32) (v6 v11 : Vec Ideal S2000x128 .f32) (v13 v15 : Vec Ideal S128x128 .f32)
    (v22 : Vec Ideal S1x128 .f32) (p : Fin 2000) (q : Fin 128) :
    k2_pay1 v0 v6 v11 v13 v15 v22 (ix2 p q)
      = max (GraphNet.layerRecip (fun r k => v6 (ix2 r k)) (fun r => v0 (ix2 r (0 : Fin 1))) (fun r k => v11 (ix2 r k))
          (fun j k => v13 (ix2 j k)) (fun j => v22 (ix2 (0 : Fin 1) j)) (fun j k => v15 (ix2 j k)) p q) 0 := by
  unfold k2_pay1 GraphNet.layerRecip
  simp only [maximumf_apply, addf_apply, broadcast_apply, shapeCast_self, broadcastTo_1b_ab_apply, Ideal.ofBits_def,
    Ideal.ofBits_zero_f32]
  rw [mulTA_apply, mulTA_apply]
  simp only [truncf_apply, mulf_apply, divf_apply, maximumf_apply, broadcast_apply,
    LibColumnBroadcast.broadcastTo_a1_ab_apply, Ideal.ofBits_def, Ideal.ofBits_one_f32]

/-- Region 3's stored block, entry `(p, q)`: the layer's row function of the loaded blocks. -/
theorem pay3_apply (v0 : Vec Ideal S2000x1 .f32) (v6 v11 : Vec Ideal S2000x128 .f32) (v14 v16 : Vec Ideal S128x128 .f32)
    (v23 : Vec Ideal S1x128 .f32) (p : Fin 2000) (q : Fin 128) :
    k3_pay1 v0 v6 v11 v14 v16 v23 (ix2 p q)
      = GraphNet.layerRecip (fun r k => v6 (ix2 r k)) (fun r => v0 (ix2 r (0 : Fin 1))) (fun r k => v11 (ix2 r k))
          (fun j k => v14 (ix2 j k)) (fun j => v23 (ix2 (0 : Fin 1) j)) (fun j k => v16 (ix2 j k)) p q := by
  unfold k3_pay1 GraphNet.layerRecip
  simp only [maximumf_apply, addf_apply, broadcast_apply, shapeCast_self, broadcastTo_1b_ab_apply, Ideal.ofBits_def,
    Ideal.ofBits_zero_f32]
  rw [mulTA_apply, mulTA_apply]
  simp only [truncf_apply, mulf_apply, divf_apply, maximumf_apply, broadcast_apply,
    LibColumnBroadcast.broadcastTo_a1_ab_apply, Ideal.ofBits_def, Ideal.ofBits_one_f32]

/-- The head's stored block, entry `(p, o)`: the head's row function of the loaded blocks. -/
theorem pay4_apply (v0 v3 : Vec Ideal S2000x128 .f32) (v6 v9 : Vec Ideal S128x128 .f32) (v17 : Vec Ideal S1x128 .f32)
    (v24 : Vec Ideal S16x128 .f32) (v28 : Vec Ideal S1x16 .f32) (p : Fin 2000) (o : Fin 16) :
    k4_pay1 v0 v3 v6 v9 v17 v24 v28 (ix2 p o)
      = GraphNet.headTwo (fun r k => v0 (ix2 r k)) (fun r k => v3 (ix2 r k)) (fun j k => v6 (ix2 j k)) (fun j k => v9 (ix2 j k))
          (fun j => v17 (ix2 (0 : Fin 1) j)) (fun j k => v24 (ix2 j k)) (fun j => v28 (ix2 (0 : Fin 1) j)) p o := by
  unfold k4_pay1 GraphNet.headTwo
  simp only [addf_apply, shapeCast_self, broadcastTo_1b_ab_apply]
  rw [mulTB_apply]
  refine congrArg (· + v28 (ix2 (0 : Fin 1) o)) (Finset.sum_congr rfl fun k _ => ?_)
  simp only [truncf_apply, maximumf_apply, addf_apply, broadcast_apply, broadcastTo_1b_ab_apply, Ideal.ofBits_def,
    Ideal.ofBits_zero_f32]
  rw [mulTA_apply, mulTA_apply]
  simp only [truncf_apply]

/-- Region 0's stored block as a whole: the layer of the loaded blocks' rows, rectified. -/
theorem pay0_eq (v0 : Vec Ideal S2000x1 .f32) (v6 v11 : Vec Ideal S2000x128 .f32) (v13 v15 : Vec Ideal S128x128 .f32)
    (v22 : Vec Ideal S1x128 .f32) :
    k0_pay1 v0 v6 v11 v13 v15 v22
      = GraphNet.ofRows (GraphNet.relu (GraphNet.layerRecip (GraphNet.rows v6) (GraphNet.col v0) (GraphNet.rows v11)
          (GraphNet.rows v13) (GraphNet.row v22) (GraphNet.rows v15))) := by
  funext j
  obtain ⟨p, q, rfl⟩ : ∃ (p : Fin 2000) (q : Fin 128), j = ix2 p q := ⟨j 0, j 1, eq_ix2 j⟩
  exact pay0_apply v0 v6 v11 v13 v15 v22 p q

/-- Region 1's stored block as a whole: the layer of the loaded blocks' rows. -/
theorem pay1_eq (v0 : Vec Ideal S2000x1 .f32) (v6 v11 : Vec Ideal S2000x128 .f32) (v14 v16 : Vec Ideal S128x128 .f32)
    (v23 : Vec Ideal S1x128 .f32) :
    k1_pay1 v0 v6 v11 v14 v16 v23
      = GraphNet.ofRows (GraphNet.layerRecip (GraphNet.rows v6) (GraphNet.col v0) (GraphNet.rows v11)
          (GraphNet.rows v14) (GraphNet.row v23) (GraphNet.rows v16)) := by
  funext j
  obtain ⟨p, q, rfl⟩ : ∃ (p : Fin 2000) (q : Fin 128), j = ix2 p q := ⟨j 0, j 1, eq_ix2 j⟩
  exact pay1_apply v0 v6 v11 v14 v16 v23 p q

/-- Region 2's stored block as a whole: the layer of the loaded blocks' rows, rectified. -/
theorem pay2_eq (v0 : Vec Ideal S2000x1 .f32) (v6 v11 : Vec Ideal S2000x128 .f32) (v13 v15 : Vec Ideal S128x128 .f32)
    (v22 : Vec Ideal S1x128 .f32) :
    k2_pay1 v0 v6 v11 v13 v15 v22
      = GraphNet.ofRows (GraphNet.relu (GraphNet.layerRecip (GraphNet.rows v6) (GraphNet.col v0) (GraphNet.rows v11)
          (GraphNet.rows v13) (GraphNet.row v22) (GraphNet.rows v15))) := by
  funext j
  obtain ⟨p, q, rfl⟩ : ∃ (p : Fin 2000) (q : Fin 128), j = ix2 p q := ⟨j 0, j 1, eq_ix2 j⟩
  exact pay2_apply v0 v6 v11 v13 v15 v22 p q

/-- Region 3's stored block as a whole: the layer of the loaded blocks' rows. -/
theorem pay3_eq (v0 : Vec Ideal S2000x1 .f32) (v6 v11 : Vec Ideal S2000x128 .f32) (v14 v16 : Vec Ideal S128x128 .f32)
    (v23 : Vec Ideal S1x128 .f32) :
    k3_pay1 v0 v6 v11 v14 v16 v23
      = GraphNet.ofRows (GraphNet.layerRecip (GraphNet.rows v6) (GraphNet.col v0) (GraphNet.rows v11)
          (GraphNet.rows v14) (GraphNet.row v23) (GraphNet.rows v16)) := by
  funext j
  obtain ⟨p, q, rfl⟩ : ∃ (p : Fin 2000) (q : Fin 128), j = ix2 p q := ⟨j 0, j 1, eq_ix2 j⟩
  exact pay3_apply v0 v6 v11 v14 v16 v23 p q

/-- The head's stored block as a whole: the head of the loaded blocks' rows. -/
theorem pay4_eq (v0 v3 : Vec Ideal S2000x128 .f32) (v6 v9 : Vec Ideal S128x128 .f32) (v17 : Vec Ideal S1x128 .f32)
    (v24 : Vec Ideal S16x128 .f32) (v28 : Vec Ideal S1x16 .f32) :
    k4_pay1 v0 v3 v6 v9 v17 v24 v28
      = GraphNet.ofRows (GraphNet.headTwo (GraphNet.rows v0) (GraphNet.rows v3) (GraphNet.rows v6) (GraphNet.rows v9)
          (GraphNet.row v17) (GraphNet.rows v24) (GraphNet.row v28)) := by
  funext j
  obtain ⟨p, o, rfl⟩ : ∃ (p : Fin 2000) (o : Fin 16), j = ix2 p o := ⟨j 0, j 1, eq_ix2 j⟩
  exact pay4_apply v0 v3 v6 v9 v17 v24 v28 p o

end Cert.KernelIdeal.DenseBlock

end
-- ==== Proof.LayerArray0.lean ====
/-
  Region 0: from what each grid point writes back to the whole output array.

  The grid has 50 points; point `t` stages rows `2000·t … 2000·t + 1999` of the neighbour sums, of the
  degree column and of the features, the whole of the two matrices and of the bias row, and writes
  back rows `2000·t … 2000·t + 1999` of the output.  An entry of a block sits at block index × block
  size + its coordinate inside the block, so row `p` of point `t`'s blocks is row `2000·t + p` of
  the arrays, and a layer's output row depends only on that row of its inputs: what point `t` writes
  back is block `t` of the layer applied to the WHOLE arrays.  The 50 blocks tile the 100000 rows
  (row `r` is in block `r / 2000`), so the output array ends holding that layer everywhere.
-/
import proofs.«104871_j37958920962736_2_alg».proof.Proof.Gen.KernelIdeal.Frame
import proofs.«104871_j37958920962736_2_alg».proof.Proof.DenseBlock

set_option maxRecDepth 16384

noncomputable section

namespace Cert.KernelIdeal.LayerArray0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the whole-array windows at `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `2000·t + p` of a 100000-row array. -/
def rowOf (t : Fin cfg0.N) (p : Fin 2000) : Fin 100000 :=
  ⟨t.val * 2000 + p.val, by have ht : t.val < 50 := lt_of_lt_of_eq t.isLt N_0; have := p.isLt; omega⟩

/-! ## The blocks read through their windows -/

theorem read_sums (c : Dev nD) (t : Fin cfg0.N) (p : Fin 2000) (k : Fin 128) :
    iblk0 V c 0 t (ix2 p k) = V c main_v18 (ix2 (rowOf t p) k) := by
  obtain ⟨e0, e1, -⟩ := index_maps t
  show V c main_v18 (((cfg0.win 0).blk t).view.emb (ix2 p k)) = _
  refine congrArg (V c main_v18) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem read_degree (c : Dev nD) (t : Fin cfg0.N) (p : Fin 2000) :
    iblk0 V c 1 t (ix2 p (0 : Fin 1)) = V c main_v8 (ix2 (rowOf t p) (0 : Fin 1)) := by
  obtain ⟨-, -, e0, e1, -⟩ := index_maps t
  show V c main_v8 (((cfg0.win 1).blk t).view.emb (ix2 p (0 : Fin 1))) = _
  refine congrArg (V c main_v8) (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

theorem read_features (c : Dev nD) (t : Fin cfg0.N) (p : Fin 2000) (k : Fin 128) :
    iblk0 V c 2 t (ix2 p k) = V c main_arg0 (ix2 (rowOf t p) k) := by
  obtain ⟨-, -, -, -, e0, e1, -⟩ := index_maps t
  show V c main_arg0 (((cfg0.win 2).blk t).view.emb (ix2 p k)) = _
  refine congrArg (V c main_arg0) (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * k.val = k.val; omega

theorem read_left (c : Dev nD) (t : Fin cfg0.N) (j k : Fin 128) :
    iblk0 V c 3 t (ix2 j k) = V c main_arg2 (ix2 j k) := by
  obtain ⟨-, -, -, -, -, -, e0, e1, -⟩ := index_maps t
  show V c main_arg2 (((cfg0.win 3).blk t).view.emb (ix2 j k)) = _
  refine congrArg (V c main_arg2) (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem read_bias (c : Dev nD) (t : Fin cfg0.N) (j : Fin 128) :
    iblk0 V c 4 t (ix2 (0 : Fin 1) j) = V c main_v19 (ix2 (0 : Fin 1) j) := by
  obtain ⟨-, -, -, -, -, -, -, -, e0, e1, -⟩ := index_maps t
  show V c main_v19 (((cfg0.win 4).blk t).view.emb (ix2 (0 : Fin 1) j)) = _
  refine congrArg (V c main_v19) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

theorem read_right (c : Dev nD) (t : Fin cfg0.N) (j k : Fin 128) :
    iblk0 V c 5 t (ix2 j k) = V c main_arg4 (ix2 j k) := by
  obtain ⟨-, -, -, -, -, -, -, -, -, -, e0, e1, -⟩ := index_maps t
  show V c main_arg4 (((cfg0.win 5).blk t).view.emb (ix2 j k)) = _
  refine congrArg (V c main_arg4) (funext fun a => Fin.ext ?_)
  match a with
  | ⟨0, _⟩ => show win0_5.index t (0 : Fin 2) * 128 + 1 * j.val = j.val; omega
  | ⟨1, _⟩ => show win0_5.index t (1 : Fin 2) * 128 + 1 * k.val = k.val; omega

/-- Where entry `(p, q)` of point `t`'s output block sits in the output array. -/
theorem out_emb (t : Fin cfg0.N) (p : Fin 2000) (q : Fin 128) :
    ((cfg0.win 6).blk t).view.emb (ix2 p q) = ix2 (rowOf t p) q := by
  obtain ⟨-, -, -, -, -, -, -, -, -, -, -, -, e0, e1⟩ := index_maps t
  refine funext fun a => Fin.ext ?_
  match a with
  | ⟨0, _⟩ => show win0_6.index t (0 : Fin 2) * 2000 + 1 * p.val = t.val * 2000 + p.val; omega
  | ⟨1, _⟩ => show win0_6.index t (1 : Fin 2) * 128 + 1 * q.val = q.val; omega

/-! ## What a point writes back, and the whole array -/

/-- The layer of the arrays as region 0 finds them. -/
def layer (c : Dev nD) : GraphNet.Arr 100000 128 :=
  GraphNet.ofRows (GraphNet.relu (GraphNet.layerRecip (GraphNet.rows (V c main_v18)) (GraphNet.col (V c main_v8)) (GraphNet.rows (V c main_arg0))
          (GraphNet.rows (V c main_arg2)) (GraphNet.row (V c main_v19)) (GraphNet.rows (V c main_arg4))))

/-- WHAT POINT `t` WRITES BACK is block `t` of the layer of the whole arrays. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero zeros]
  simp only [View.ld_unit_zero (S := S2000x128) zeros, View.ld_unit_zero (S := S2000x1) zeros,
    View.ld_unit_zero (S := S128x128) zeros, View.ld_unit_zero (S := S1x128) zeros]
  rw [DenseBlock.pay0_eq (iblk0 V c 1 t) (iblk0 V c 0 t) (iblk0 V c 2 t) (iblk0 V c 3 t) (iblk0 V c 5 t) (iblk0 V c 4 t)]
  funext j
  obtain ⟨p, q, rfl⟩ : ∃ (p : Fin 2000) (q : Fin 128), j = ix2 p q := ⟨j 0, j 1, eq_ix2 j⟩
  show GraphNet.ofRows (GraphNet.relu (GraphNet.layerRecip (GraphNet.rows (iblk0 V c 0 t)) (GraphNet.col (iblk0 V c 1 t)) (GraphNet.rows (iblk0 V c 2 t))
          (GraphNet.rows (iblk0 V c 3 t)) (GraphNet.row (iblk0 V c 4 t)) (GraphNet.rows (iblk0 V c 5 t)))) (ix2 p q)
      = layer V c (((cfg0.win 6).blk t).view.emb (ix2 p q))
  rw [out_emb t p q]
  show max (GraphNet.layerRecip _ _ _ _ _ _ p q) 0 = max (GraphNet.layerRecip _ _ _ _ _ _ (rowOf t p) q) 0
  refine congrArg (max · 0) (GraphNet.layerRecip_congr_row p (rowOf t p) q (fun k => read_sums V c t p k) (read_degree V c t p)
    (fun k => read_features V c t p k) (fun k => read_left V c t q k) (read_bias V c t q) (fun k => read_right V c t q k))

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v20).slice (win0_6.rect t)).set ↔ _
  rw [View.set_slice_whole, Rect.mem_set_unit]
  exact Iff.rfl

/-- The 50 blocks tile the array: row `r` is in block `r / 2000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 2000 < cfg0.N := lt_of_lt_of_eq (by omega : (i 0).val / 2000 < 50) N_0.symm
  refine ⟨⟨(i 0).val / 2000, hN⟩, flush0_6 _, ?_⟩
  obtain ⟨-, -, -, -, -, -, -, -, -, -, -, -, e0, e1⟩ := index_maps ⟨(i 0).val / 2000, hN⟩
  rw [mem_blk]
  intro a
  match a with
  | ⟨0, _⟩ =>
    show win0_6.index ⟨(i 0).val / 2000, hN⟩ (0 : Fin 2) * 2000 ≤ (i 0).val ∧ (i 0).val < win0_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, hN⟩ (1 : Fin 2) * 128 ≤ (i 1).val ∧ (i 1).val < win0_6.index ⟨(i 0).val / 2000, hN⟩ (1 : Fin 2) * 128 + 128
    rw [e1]
    omega

/-- THE OUTPUT ARRAY after region 0: the layer of the arrays as the region finds them. -/
theorem final (c : Dev nD) : (dat0 V c).arrAt 6 cfg0.N = layer V c :=
  (dat0 V c).arrAt_eq_of_cover 6 (layer V c) (fun t _ => flushed_eq V c t) cover

end Cert.KernelIdeal.LayerArray0

end
-- ==== Proof.LayerArray1.lean ====
/-
  Region 1: from what each grid point writes back to the whole output array.

  The grid has 50 points; point `t` stages rows `2000·t … 2000·t + 1999` of the neighbour sums, of the
  degree column and of the features, the whole of the two matrices and of the bias row, and writes
  back rows `2000·t … 2000·t + 1999` of the output.  An entry of a block sits at block index × block
  size + its coordinate inside the block, so row `p` of point `t`'s blocks is row `2000·t + p` of
  the arrays, and a layer's output row depends only on that row of its inputs: what point `t` writes
  back is block `t` of the layer applied to the WHOLE arrays.  The 50 blocks tile the 100000 rows
  (row `r` is in block `r / 2000`), so the output array ends holding that layer everywhere.
-/
import proofs.«104871_j37958920962736_2_alg».proof.Proof.Gen.KernelIdeal.Frame
import proofs.«104871_j37958920962736_2_alg».proof.Proof.DenseBlock

set_option maxRecDepth 16384

noncomputable section

namespace Cert.KernelIdeal.LayerArray1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the whole-array windows at `(0, 0)`. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `2000·t + p` of a 100000-row array. -/
def rowOf (t : Fin cfg1.N) (p : Fin 2000) : Fin 100000 :=
  ⟨t.val * 2000 + p.val, by have ht : t.val < 50 := lt_of_lt_of_eq t.isLt N_1; have := p.isLt; omega⟩

/-! ## The blocks read through their windows -/

theorem read_sums (c : Dev nD) (t : Fin cfg1.N) (p : Fin 2000) (k : Fin 128) :
    iblk1 V c 0 t (ix2 p k) = V c main_v30 (ix2 (rowOf t p) k) := by
  obtain ⟨e0, e1, -⟩ := index_maps t
  show V c main_v30 (((cfg1.win 0).blk t).view.emb (ix2 p k)) = _
  refine congrArg (V c main_v30) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem read_degree (c : Dev nD) (t : Fin cfg1.N) (p : Fin 2000) :
    iblk1 V c 1 t (ix2 p (0 : Fin 1)) = V c main_v8 (ix2 (rowOf t p) (0 : Fin 1)) := by
  obtain ⟨-, -, e0, e1, -⟩ := index_maps t
  show V c main_v8 (((cfg1.win 1).blk t).view.emb (ix2 p (0 : Fin 1))) = _
  refine congrArg (V c main_v8) (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

theorem read_features (c : Dev nD) (t : Fin cfg1.N) (p : Fin 2000) (k : Fin 128) :
    iblk1 V c 2 t (ix2 p k) = V c main_v20 (ix2 (rowOf t p) k) := by
  obtain ⟨-, -, -, -, e0, e1, -⟩ := index_maps t
  show V c main_v20 (((cfg1.win 2).blk t).view.emb (ix2 p k)) = _
  refine congrArg (V c main_v20) (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

theorem read_left (c : Dev nD) (t : Fin cfg1.N) (j k : Fin 128) :
    iblk1 V c 3 t (ix2 j k) = V c main_arg5 (ix2 j k) := by
  obtain ⟨-, -, -, -, -, -, e0, e1, -⟩ := index_maps t
  show V c main_arg5 (((cfg1.win 3).blk t).view.emb (ix2 j k)) = _
  refine congrArg (V c main_arg5) (funext fun a => Fin.ext ?_)
  match a with
  | ⟨0, _⟩ => show win1_3.index t (0 : Fin 2) * 128 + 1 * j.val = j.val; omega
  | ⟨1, _⟩ => show win1_3.index t (1 : Fin 2) * 128 + 1 * k.val = k.val; omega

theorem read_bias (c : Dev nD) (t : Fin cfg1.N) (j : Fin 128) :
    iblk1 V c 4 t (ix2 (0 : Fin 1) j) = V c main_v31 (ix2 (0 : Fin 1) j) := by
  obtain ⟨-, -, -, -, -, -, -, -, e0, e1, -⟩ := index_maps t
  show V c main_v31 (((cfg1.win 4).blk t).view.emb (ix2 (0 : Fin 1) j)) = _
  refine congrArg (V c main_v31) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

theorem read_right (c : Dev nD) (t : Fin cfg1.N) (j k : Fin 128) :
    iblk1 V c 5 t (ix2 j k) = V c main_arg7 (ix2 j k) := by
  obtain ⟨-, -, -, -, -, -, -, -, -, -, e0, e1, -⟩ := index_maps t
  show V c main_arg7 (((cfg1.win 5).blk t).view.emb (ix2 j k)) = _
  refine congrArg (V c main_arg7) (funext fun a => Fin.ext ?_)
  match a with
  | ⟨0, _⟩ => show win1_5.index t (0 : Fin 2) * 128 + 1 * j.val = j.val; omega
  | ⟨1, _⟩ => show win1_5.index t (1 : Fin 2) * 128 + 1 * k.val = k.val; omega

/-- Where entry `(p, q)` of point `t`'s output block sits in the output array. -/
theorem out_emb (t : Fin cfg1.N) (p : Fin 2000) (q : Fin 128) :
    ((cfg1.win 6).blk t).view.emb (ix2 p q) = ix2 (rowOf t p) q := by
  obtain ⟨-, -, -, -, -, -, -, -, -, -, -, -, e0, e1⟩ := index_maps t
  refine funext fun a => Fin.ext ?_
  match a with
  | ⟨0, _⟩ => show win1_6.index t (0 : Fin 2) * 2000 + 1 * p.val = t.val * 2000 + p.val; omega
  | ⟨1, _⟩ => show win1_6.index t (1 : Fin 2) * 128 + 1 * q.val = q.val; omega

/-! ## What a point writes back, and the whole array -/

/-- The layer of the arrays as region 1 finds them. -/
def layer (c : Dev nD) : GraphNet.Arr 100000 128 :=
  GraphNet.ofRows (GraphNet.layerRecip (GraphNet.rows (V c main_v30)) (GraphNet.col (V c main_v8)) (GraphNet.rows (V c main_v20))
          (GraphNet.rows (V c main_arg5)) (GraphNet.row (V c main_v31)) (GraphNet.rows (V c main_arg7)))

/-- WHAT POINT `t` WRITES BACK is block `t` of the layer of the whole arrays. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero zeros]
  simp only [View.ld_unit_zero (S := S2000x128) zeros, View.ld_unit_zero (S := S2000x1) zeros,
    View.ld_unit_zero (S := S128x128) zeros, View.ld_unit_zero (S := S1x128) zeros]
  rw [DenseBlock.pay1_eq (iblk1 V c 1 t) (iblk1 V c 0 t) (iblk1 V c 2 t) (iblk1 V c 3 t) (iblk1 V c 5 t) (iblk1 V c 4 t)]
  funext j
  obtain ⟨p, q, rfl⟩ : ∃ (p : Fin 2000) (q : Fin 128), j = ix2 p q := ⟨j 0, j 1, eq_ix2 j⟩
  show GraphNet.ofRows (GraphNet.layerRecip (GraphNet.rows (iblk1 V c 0 t)) (GraphNet.col (iblk1 V c 1 t)) (GraphNet.rows (iblk1 V c 2 t))
          (GraphNet.rows (iblk1 V c 3 t)) (GraphNet.row (iblk1 V c 4 t)) (GraphNet.rows (iblk1 V c 5 t))) (ix2 p q)
      = layer V c (((cfg1.win 6).blk t).view.emb (ix2 p q))
  rw [out_emb t p q]
  show GraphNet.layerRecip _ _ _ _ _ _ p q = GraphNet.layerRecip _ _ _ _ _ _ (rowOf t p) q
  refine (GraphNet.layerRecip_congr_row p (rowOf t p) q (fun k => read_sums V c t p k) (read_degree V c t p)
    (fun k => read_features V c t p k) (fun k => read_left V c t q k) (read_bias V c t q) (fun k => read_right V c t q k))

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v32).slice (win1_6.rect t)).set ↔ _
  rw [View.set_slice_whole, Rect.mem_set_unit]
  exact Iff.rfl

/-- The 50 blocks tile the array: row `r` is in block `r / 2000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 2000 < cfg1.N := lt_of_lt_of_eq (by omega : (i 0).val / 2000 < 50) N_1.symm
  refine ⟨⟨(i 0).val / 2000, hN⟩, flush1_6 _, ?_⟩
  obtain ⟨-, -, -, -, -, -, -, -, -, -, -, -, e0, e1⟩ := index_maps ⟨(i 0).val / 2000, hN⟩
  rw [mem_blk]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hN⟩ (1 : Fin 2) * 128 ≤ (i 1).val ∧ (i 1).val < win1_6.index ⟨(i 0).val / 2000, hN⟩ (1 : Fin 2) * 128 + 128
    rw [e1]
    omega

/-- THE OUTPUT ARRAY after region 1: the layer of the arrays as the region finds them. -/
theorem final (c : Dev nD) : (dat1 V c).arrAt 6 cfg1.N = layer V c :=
  (dat1 V c).arrAt_eq_of_cover 6 (layer V c) (fun t _ => flushed_eq V c t) cover

end Cert.KernelIdeal.LayerArray1

end
-- ==== Proof.LayerArray2.lean ====
/-
  Region 2: from what each grid point writes back to the whole output array.

  The grid has 50 points; point `t` stages rows `2000·t … 2000·t + 1999` of the neighbour sums, of the
  degree column and of the features, the whole of the two matrices and of the bias row, and writes
  back rows `2000·t … 2000·t + 1999` of the output.  An entry of a block sits at block index × block
  size + its coordinate inside the block, so row `p` of point `t`'s blocks is row `2000·t + p` of
  the arrays, and a layer's output row depends only on that row of its inputs: what point `t` writes
  back is block `t` of the layer applied to the WHOLE arrays.  The 50 blocks tile the 100000 rows
  (row `r` is in block `r / 2000`), so the output array ends holding that layer everywhere.
-/
import proofs.«104871_j37958920962736_2_alg».proof.Proof.Gen.KernelIdeal.Frame
import proofs.«104871_j37958920962736_2_alg».proof.Proof.DenseBlock

set_option maxRecDepth 16384

noncomputable section

namespace Cert.KernelIdeal.LayerArray2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the whole-array windows at `(0, 0)`. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `2000·t + p` of a 100000-row array. -/
def rowOf (t : Fin cfg2.N) (p : Fin 2000) : Fin 100000 :=
  ⟨t.val * 2000 + p.val, by have ht : t.val < 50 := lt_of_lt_of_eq t.isLt N_2; have := p.isLt; omega⟩

/-! ## The blocks read through their windows -/

theorem read_sums (c : Dev nD) (t : Fin cfg2.N) (p : Fin 2000) (k : Fin 128) :
    iblk2 V c 0 t (ix2 p k) = V c main_v42 (ix2 (rowOf t p) k) := by
  obtain ⟨e0, e1, -⟩ := index_maps t
  show V c main_v42 (((cfg2.win 0).blk t).view.emb (ix2 p k)) = _
  refine congrArg (V c main_v42) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

theorem read_degree (c : Dev nD) (t : Fin cfg2.N) (p : Fin 2000) :
    iblk2 V c 1 t (ix2 p (0 : Fin 1)) = V c main_v8 (ix2 (rowOf t p) (0 : Fin 1)) := by
  obtain ⟨-, -, e0, e1, -⟩ := index_maps t
  show V c main_v8 (((cfg2.win 1).blk t).view.emb (ix2 p (0 : Fin 1))) = _
  refine congrArg (V c main_v8) (funext fun a => Fin.ext ?_)
  match a with
  | ⟨0, _⟩ => show win2_1.index t (0 : Fin 2) * 2000 + 1 * p.val = t.val * 2000 + p.val; omega
  | ⟨1, _⟩ => show win2_1.index t (1 : Fin 2) * 1 + 1 * 0 = 0; omega

theorem read_features (c : Dev nD) (t : Fin cfg2.N) (p : Fin 2000) (k : Fin 128) :
    iblk2 V c 2 t (ix2 p k) = V c main_arg0 (ix2 (rowOf t p) k) := by
  obtain ⟨-, -, -, -, e0, e1, -⟩ := index_maps t
  show V c main_arg0 (((cfg2.win 2).blk t).view.emb (ix2 p k)) = _
  refine congrArg (V c main_arg0) (funext fun a => Fin.ext ?_)
  match a with
  | ⟨0, _⟩ => show win2_2.index t (0 : Fin 2) * 2000 + 1 * p.val = t.val * 2000 + p.val; omega
  | ⟨1, _⟩ => show win2_2.index t (1 : Fin 2) * 128 + 1 * k.val = k.val; omega

theorem read_left (c : Dev nD) (t : Fin cfg2.N) (j k : Fin 128) :
    iblk2 V c 3 t (ix2 j k) = V c main_arg8 (ix2 j k) := by
  obtain ⟨-, -, -, -, -, -, e0, e1, -⟩ := index_maps t
  show V c main_arg8 (((cfg2.win 3).blk t).view.emb (ix2 j k)) = _
  refine congrArg (V c main_arg8) (funext fun a => Fin.ext ?_)
  match a with
  | ⟨0, _⟩ => show win2_3.index t (0 : Fin 2) * 128 + 1 * j.val = j.val; omega
  | ⟨1, _⟩ => show win2_3.index t (1 : Fin 2) * 128 + 1 * k.val = k.val; omega

theorem read_bias (c : Dev nD) (t : Fin cfg2.N) (j : Fin 128) :
    iblk2 V c 4 t (ix2 (0 : Fin 1) j) = V c main_v43 (ix2 (0 : Fin 1) j) := by
  obtain ⟨-, -, -, -, -, -, -, -, e0, e1, -⟩ := index_maps t
  show V c main_v43 (((cfg2.win 4).blk t).view.emb (ix2 (0 : Fin 1) j)) = _
  refine congrArg (V c main_v43) (funext fun a => Fin.ext ?_)
  match a with
  | ⟨0, _⟩ => show win2_4.index t (0 : Fin 2) * 1 + 1 * 0 = 0; omega
  | ⟨1, _⟩ => show win2_4.index t (1 : Fin 2) * 128 + 1 * j.val = j.val; omega

theorem read_right (c : Dev nD) (t : Fin cfg2.N) (j k : Fin 128) :
    iblk2 V c 5 t (ix2 j k) = V c main_arg10 (ix2 j k) := by
  obtain ⟨-, -, -, -, -, -, -, -, -, -, e0, e1, -⟩ := index_maps t
  show V c main_arg10 (((cfg2.win 5).blk t).view.emb (ix2 j k)) = _
  refine congrArg (V c main_arg10) (funext fun a => Fin.ext ?_)
  match a with
  | ⟨0, _⟩ => show win2_5.index t (0 : Fin 2) * 128 + 1 * j.val = j.val; omega
  | ⟨1, _⟩ => show win2_5.index t (1 : Fin 2) * 128 + 1 * k.val = k.val; omega

/-- Where entry `(p, q)` of point `t`'s output block sits in the output array. -/
theorem out_emb (t : Fin cfg2.N) (p : Fin 2000) (q : Fin 128) :
    ((cfg2.win 6).blk t).view.emb (ix2 p q) = ix2 (rowOf t p) q := by
  obtain ⟨-, -, -, -, -, -, -, -, -, -, -, -, e0, e1⟩ := index_maps t
  refine funext fun a => Fin.ext ?_
  match a with
  | ⟨0, _⟩ => show win2_6.index t (0 : Fin 2) * 2000 + 1 * p.val = t.val * 2000 + p.val; omega
  | ⟨1, _⟩ => show win2_6.index t (1 : Fin 2) * 128 + 1 * q.val = q.val; omega

/-! ## What a point writes back, and the whole array -/

/-- The layer of the arrays as region 2 finds them. -/
def layer (c : Dev nD) : GraphNet.Arr 100000 128 :=
  GraphNet.ofRows (GraphNet.relu (GraphNet.layerRecip (GraphNet.rows (V c main_v42)) (GraphNet.col (V c main_v8)) (GraphNet.rows (V c main_arg0))
          (GraphNet.rows (V c main_arg8)) (GraphNet.row (V c main_v43)) (GraphNet.rows (V c main_arg10))))

/-- WHAT POINT `t` WRITES BACK is block `t` of the layer of the whole arrays. -/
theorem flushed_eq (c : Dev nD) (t : Fin cfg2.N) :
    (dat2 V c).flushed 6 t = ((cfg2.win 6).blk t).view.read (Elt Ideal) (layer V c) := by
  show (cfg2.win 6).cut (grid2.coords t) ((dat2 V c).after 6 t) = _
  rw [after2_6]
  unfold out2_6
  rw [View.canon_unit_zero zeros]
  simp only [View.ld_unit_zero (S := S2000x128) zeros, View.ld_unit_zero (S := S2000x1) zeros,
    View.ld_unit_zero (S := S128x128) zeros, View.ld_unit_zero (S := S1x128) zeros]
  rw [DenseBlock.pay2_eq (iblk2 V c 1 t) (iblk2 V c 0 t) (iblk2 V c 2 t) (iblk2 V c 3 t) (iblk2 V c 5 t) (iblk2 V c 4 t)]
  funext j
  obtain ⟨p, q, rfl⟩ : ∃ (p : Fin 2000) (q : Fin 128), j = ix2 p q := ⟨j 0, j 1, eq_ix2 j⟩
  show GraphNet.ofRows (GraphNet.relu (GraphNet.layerRecip (GraphNet.rows (iblk2 V c 0 t)) (GraphNet.col (iblk2 V c 1 t)) (GraphNet.rows (iblk2 V c 2 t))
          (GraphNet.rows (iblk2 V c 3 t)) (GraphNet.row (iblk2 V c 4 t)) (GraphNet.rows (iblk2 V c 5 t)))) (ix2 p q)
      = layer V c (((cfg2.win 6).blk t).view.emb (ix2 p q))
  rw [out_emb t p q]
  show max (GraphNet.layerRecip _ _ _ _ _ _ p q) 0 = max (GraphNet.layerRecip _ _ _ _ _ _ (rowOf t p) q) 0
  refine congrArg (max · 0) (GraphNet.layerRecip_congr_row p (rowOf t p) q (fun k => read_sums V c t p k) (read_degree V c t p)
    (fun k => read_features V c t p k) (fun k => read_left V c t q k) (read_bias V c t q) (fun k => read_right V c t q k))

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v44).slice (win2_6.rect t)).set ↔ _
  rw [View.set_slice_whole, Rect.mem_set_unit]
  exact Iff.rfl

/-- The 50 blocks tile the array: row `r` is in block `r / 2000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 2000 < cfg2.N := lt_of_lt_of_eq (by omega : (i 0).val / 2000 < 50) N_2.symm
  refine ⟨⟨(i 0).val / 2000, hN⟩, flush2_6 _, ?_⟩
  obtain ⟨-, -, -, -, -, -, -, -, -, -, -, -, e0, e1⟩ := index_maps ⟨(i 0).val / 2000, hN⟩
  rw [mem_blk]
  intro a
  match a with
  | ⟨0, _⟩ =>
    show win2_6.index ⟨(i 0).val / 2000, hN⟩ (0 : Fin 2) * 2000 ≤ (i 0).val ∧ (i 0).val < win2_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_6.index ⟨(i 0).val / 2000, hN⟩ (1 : Fin 2) * 128 ≤ (i 1).val ∧ (i 1).val < win2_6.index ⟨(i 0).val / 2000, hN⟩ (1 : Fin 2) * 128 + 128
    rw [e1]
    omega

/-- THE OUTPUT ARRAY after region 2: the layer of the arrays as the region finds them. -/
theorem final (c : Dev nD) : (dat2 V c).arrAt 6 cfg2.N = layer V c :=
  (dat2 V c).arrAt_eq_of_cover 6 (layer V c) (fun t _ => flushed_eq V c t) cover

end Cert.KernelIdeal.LayerArray2

end
-- ==== Proof.LayerArray3.lean ====
/-
  Region 3: from what each grid point writes back to the whole output array.

  The grid has 50 points; point `t` stages rows `2000·t … 2000·t + 1999` of the neighbour sums, of the
  degree column and of the features, the whole of the two matrices and of the bias row, and writes
  back rows `2000·t … 2000·t + 1999` of the output.  An entry of a block sits at block index × block
  size + its coordinate inside the block, so row `p` of point `t`'s blocks is row `2000·t + p` of
  the arrays, and a layer's output row depends only on that row of its inputs: what point `t` writes
  back is block `t` of the layer applied to the WHOLE arrays.  The 50 blocks tile the 100000 rows
  (row `r` is in block `r / 2000`), so the output array ends holding that layer everywhere.
-/
import proofs.«104871_j37958920962736_2_alg».proof.Proof.Gen.KernelIdeal.Frame
import proofs.«104871_j37958920962736_2_alg».proof.Proof.DenseBlock

set_option maxRecDepth 16384

noncomputable section

namespace Cert.KernelIdeal.LayerArray3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the whole-array windows at `(0, 0)`. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `2000·t + p` of a 100000-row array. -/
def rowOf (t : Fin cfg3.N) (p : Fin 2000) : Fin 100000 :=
  ⟨t.val * 2000 + p.val, by have ht : t.val < 50 := lt_of_lt_of_eq t.isLt N_3; have := p.isLt; omega⟩

/-! ## The blocks read through their windows -/

theorem read_sums (c : Dev nD) (t : Fin cfg3.N) (p : Fin 2000) (k : Fin 128) :
    iblk3 V c 0 t (ix2 p k) = V c main_v54 (ix2 (rowOf t p) k) := by
  obtain ⟨e0, e1, -⟩ := index_maps t
  show V c main_v54 (((cfg3.win 0).blk t).view.emb (ix2 p k)) = _
  refine congrArg (V c main_v54) (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * k.val = k.val; omega

theorem read_degree (c : Dev nD) (t : Fin cfg3.N) (p : Fin 2000) :
    iblk3 V c 1 t (ix2 p (0 : Fin 1)) = V c main_v8 (ix2 (rowOf t p) (0 : Fin 1)) := by
  obtain ⟨-, -, e0, e1, -⟩ := index_maps t
  show V c main_v8 (((cfg3.win 1).blk t).view.emb (ix2 p (0 : Fin 1))) = _
  refine congrArg (V c main_v8) (funext fun a => Fin.ext ?_)
  match a with
  | ⟨0, _⟩ => show win3_1.index t (0 : Fin 2) * 2000 + 1 * p.val = t.val * 2000 + p.val; omega
  | ⟨1, _⟩ => show win3_1.index t (1 : Fin 2) * 1 + 1 * 0 = 0; omega

theorem read_features (c : Dev nD) (t : Fin cfg3.N) (p : Fin 2000) (k : Fin 128) :
    iblk3 V c 2 t (ix2 p k) = V c main_v44 (ix2 (rowOf t p) k) := by
  obtain ⟨-, -, -, -, e0, e1, -⟩ := index_maps t
  show V c main_v44 (((cfg3.win 2).blk t).view.emb (ix2 p k)) = _
  refine congrArg (V c main_v44) (funext fun a => Fin.ext ?_)
  match a with
  | ⟨0, _⟩ => show win3_2.index t (0 : Fin 2) * 2000 + 1 * p.val = t.val * 2000 + p.val; omega
  | ⟨1, _⟩ => show win3_2.index t (1 : Fin 2) * 128 + 1 * k.val = k.val; omega

theorem read_left (c : Dev nD) (t : Fin cfg3.N) (j k : Fin 128) :
    iblk3 V c 3 t (ix2 j k) = V c main_arg11 (ix2 j k) := by
  obtain ⟨-, -, -, -, -, -, e0, e1, -⟩ := index_maps t
  show V c main_arg11 (((cfg3.win 3).blk t).view.emb (ix2 j k)) = _
  refine congrArg (V c main_arg11) (funext fun a => Fin.ext ?_)
  match a with
  | ⟨0, _⟩ => show win3_3.index t (0 : Fin 2) * 128 + 1 * j.val = j.val; omega
  | ⟨1, _⟩ => show win3_3.index t (1 : Fin 2) * 128 + 1 * k.val = k.val; omega

theorem read_bias (c : Dev nD) (t : Fin cfg3.N) (j : Fin 128) :
    iblk3 V c 4 t (ix2 (0 : Fin 1) j) = V c main_v55 (ix2 (0 : Fin 1) j) := by
  obtain ⟨-, -, -, -, -, -, -, -, e0, e1, -⟩ := index_maps t
  show V c main_v55 (((cfg3.win 4).blk t).view.emb (ix2 (0 : Fin 1) j)) = _
  refine congrArg (V c main_v55) (funext fun a => Fin.ext ?_)
  match a with
  | ⟨0, _⟩ => show win3_4.index t (0 : Fin 2) * 1 + 1 * 0 = 0; omega
  | ⟨1, _⟩ => show win3_4.index t (1 : Fin 2) * 128 + 1 * j.val = j.val; omega

theorem read_right (c : Dev nD) (t : Fin cfg3.N) (j k : Fin 128) :
    iblk3 V c 5 t (ix2 j k) = V c main_arg13 (ix2 j k) := by
  obtain ⟨-, -, -, -, -, -, -, -, -, -, e0, e1, -⟩ := index_maps t
  show V c main_arg13 (((cfg3.win 5).blk t).view.emb (ix2 j k)) = _
  refine congrArg (V c main_arg13) (funext fun a => Fin.ext ?_)
  match a with
  | ⟨0, _⟩ => show win3_5.index t (0 : Fin 2) * 128 + 1 * j.val = j.val; omega
  | ⟨1, _⟩ => show win3_5.index t (1 : Fin 2) * 128 + 1 * k.val = k.val; omega

/-- Where entry `(p, q)` of point `t`'s output block sits in the output array. -/
theorem out_emb (t : Fin cfg3.N) (p : Fin 2000) (q : Fin 128) :
    ((cfg3.win 6).blk t).view.emb (ix2 p q) = ix2 (rowOf t p) q := by
  obtain ⟨-, -, -, -, -, -, -, -, -, -, -, -, e0, e1⟩ := index_maps t
  refine funext fun a => Fin.ext ?_
  match a with
  | ⟨0, _⟩ => show win3_6.index t (0 : Fin 2) * 2000 + 1 * p.val = t.val * 2000 + p.val; omega
  | ⟨1, _⟩ => show win3_6.index t (1 : Fin 2) * 128 + 1 * q.val = q.val; omega

/-! ## What a point writes back, and the whole array -/

/-- The layer of the arrays as region 3 finds them. -/
def layer (c : Dev nD) : GraphNet.Arr 100000 128 :=
  GraphNet.ofRows (GraphNet.layerRecip (GraphNet.rows (V c main_v54)) (GraphNet.col (V c main_v8)) (GraphNet.rows (V c main_v44))
          (GraphNet.rows (V c main_arg11)) (GraphNet.row (V c main_v55)) (GraphNet.rows (V c main_arg13)))

/-- WHAT POINT `t` WRITES BACK is block `t` of the layer of the whole arrays. -/
theorem flushed_eq (c : Dev nD) (t : Fin cfg3.N) :
    (dat3 V c).flushed 6 t = ((cfg3.win 6).blk t).view.read (Elt Ideal) (layer V c) := by
  show (cfg3.win 6).cut (grid3.coords t) ((dat3 V c).after 6 t) = _
  rw [after3_6]
  unfold out3_6
  rw [View.canon_unit_zero zeros]
  simp only [View.ld_unit_zero (S := S2000x128) zeros, View.ld_unit_zero (S := S2000x1) zeros,
    View.ld_unit_zero (S := S128x128) zeros, View.ld_unit_zero (S := S1x128) zeros]
  rw [DenseBlock.pay3_eq (iblk3 V c 1 t) (iblk3 V c 0 t) (iblk3 V c 2 t) (iblk3 V c 3 t) (iblk3 V c 5 t) (iblk3 V c 4 t)]
  funext j
  obtain ⟨p, q, rfl⟩ : ∃ (p : Fin 2000) (q : Fin 128), j = ix2 p q := ⟨j 0, j 1, eq_ix2 j⟩
  show GraphNet.ofRows (GraphNet.layerRecip (GraphNet.rows (iblk3 V c 0 t)) (GraphNet.col (iblk3 V c 1 t)) (GraphNet.rows (iblk3 V c 2 t))
          (GraphNet.rows (iblk3 V c 3 t)) (GraphNet.row (iblk3 V c 4 t)) (GraphNet.rows (iblk3 V c 5 t))) (ix2 p q)
      = layer V c (((cfg3.win 6).blk t).view.emb (ix2 p q))
  rw [out_emb t p q]
  show GraphNet.layerRecip _ _ _ _ _ _ p q = GraphNet.layerRecip _ _ _ _ _ _ (rowOf t p) q
  refine (GraphNet.layerRecip_congr_row p (rowOf t p) q (fun k => read_sums V c t p k) (read_degree V c t p)
    (fun k => read_features V c t p k) (fun k => read_left V c t q k) (read_bias V c t q) (fun k => read_right V c t q k))

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v56).slice (win3_6.rect t)).set ↔ _
  rw [View.set_slice_whole, Rect.mem_set_unit]
  exact Iff.rfl

/-- The 50 blocks tile the array: row `r` is in block `r / 2000`. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : (i 0).val / 2000 < cfg3.N := lt_of_lt_of_eq (by omega : (i 0).val / 2000 < 50) N_3.symm
  refine ⟨⟨(i 0).val / 2000, hN⟩, flush3_6 _, ?_⟩
  obtain ⟨-, -, -, -, -, -, -, -, -, -, -, -, e0, e1⟩ := index_maps ⟨(i 0).val / 2000, hN⟩
  rw [mem_blk]
  intro a
  match a with
  | ⟨0, _⟩ =>
    show win3_6.index ⟨(i 0).val / 2000, hN⟩ (0 : Fin 2) * 2000 ≤ (i 0).val ∧ (i 0).val < win3_6.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, hN⟩ (1 : Fin 2) * 128 ≤ (i 1).val ∧ (i 1).val < win3_6.index ⟨(i 0).val / 2000, hN⟩ (1 : Fin 2) * 128 + 128
    rw [e1]
    omega

/-- THE OUTPUT ARRAY after region 3: the layer of the arrays as the region finds them. -/
theorem final (c : Dev nD) : (dat3 V c).arrAt 6 cfg3.N = layer V c :=
  (dat3 V c).arrAt_eq_of_cover 6 (layer V c) (fun t _ => flushed_eq V c t) cover

end Cert.KernelIdeal.LayerArray3

end
-- ==== Proof.HeadArray.lean ====
/-
  Region 4: from what each grid point writes back to the whole result array.

  Point `t` of the 50 stages rows `2000·t … 2000·t + 1999` of the two branches, the whole of the two
  128 × 128 matrices, of the 16 × 128 matrix and of the two bias rows, and writes back the same rows
  of the 16-column result.  The head's output row depends only on that row of the two branches, so
  what point `t` writes back is block `t` of the head applied to the WHOLE arrays, and the 50 blocks
  tile the 100000 rows.
-/
import proofs.«104871_j37958920962736_2_alg».proof.Proof.Gen.KernelIdeal.Frame
import proofs.«104871_j37958920962736_2_alg».proof.Proof.DenseBlock

set_option maxRecDepth 16384

noncomputable section

namespace Cert.KernelIdeal.HeadArray

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows sit at block `(t, 0)`, the whole-array windows at `(0, 0)`. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `2000·t + p` of a 100000-row array. -/
def rowOf (t : Fin cfg4.N) (p : Fin 2000) : Fin 100000 :=
  ⟨t.val * 2000 + p.val, by have ht : t.val < 50 := lt_of_lt_of_eq t.isLt N_4; have := p.isLt; omega⟩

/-! ## The blocks read through their windows -/

theorem read_branch1 (c : Dev nD) (t : Fin cfg4.N) (p : Fin 2000) (k : Fin 128) :
    iblk4 V c 0 t (ix2 p k) = V c main_v32 (ix2 (rowOf t p) k) := by
  obtain ⟨e0, e1, -⟩ := index_maps t
  show V c main_v32 (((cfg4.win 0).blk t).view.emb (ix2 p k)) = _
  refine congrArg (V c main_v32) (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * k.val = k.val; omega

theorem read_branch2 (c : Dev nD) (t : Fin cfg4.N) (p : Fin 2000) (k : Fin 128) :
    iblk4 V c 1 t (ix2 p k) = V c main_v56 (ix2 (rowOf t p) k) := by
  obtain ⟨-, -, e0, e1, -⟩ := index_maps t
  show V c main_v56 (((cfg4.win 1).blk t).view.emb (ix2 p k)) = _
  refine congrArg (V c main_v56) (funext fun a => Fin.ext ?_)
  match a with
  | ⟨0, _⟩ => show win4_1.index t (0 : Fin 2) * 2000 + 1 * p.val = t.val * 2000 + p.val; omega
  | ⟨1, _⟩ => show win4_1.index t (1 : Fin 2) * 128 + 1 * k.val = k.val; omega

theorem read_first1 (c : Dev nD) (t : Fin cfg4.N) (j k : Fin 128) :
    iblk4 V c 2 t (ix2 j k) = V c main_v57 (ix2 j k) := by
  obtain ⟨-, -, -, -, e0, e1, -⟩ := index_maps t
  show V c main_v57 (((cfg4.win 2).blk t).view.emb (ix2 j k)) = _
  refine congrArg (V c main_v57) (funext fun a => Fin.ext ?_)
  match a with
  | ⟨0, _⟩ => show win4_2.index t (0 : Fin 2) * 128 + 1 * j.val = j.val; omega
  | ⟨1, _⟩ => show win4_2.index t (1 : Fin 2) * 128 + 1 * k.val = k.val; omega

theorem read_first2 (c : Dev nD) (t : Fin cfg4.N) (j k : Fin 128) :
    iblk4 V c 3 t (ix2 j k) = V c main_v58 (ix2 j k) := by
  obtain ⟨-, -, -, -, -, -, e0, e1, -⟩ := index_maps t
  show V c main_v58 (((cfg4.win 3).blk t).view.emb (ix2 j k)) = _
  refine congrArg (V c main_v58) (funext fun a => Fin.ext ?_)
  match a with
  | ⟨0, _⟩ => show win4_3.index t (0 : Fin 2) * 128 + 1 * j.val = j.val; omega
  | ⟨1, _⟩ => show win4_3.index t (1 : Fin 2) * 128 + 1 * k.val = k.val; omega

theorem read_bias1 (c : Dev nD) (t : Fin cfg4.N) (j : Fin 128) :
    iblk4 V c 4 t (ix2 (0 : Fin 1) j) = V c main_v59 (ix2 (0 : Fin 1) j) := by
  obtain ⟨-, -, -, -, -, -, -, -, e0, e1, -⟩ := index_maps t
  show V c main_v59 (((cfg4.win 4).blk t).view.emb (ix2 (0 : Fin 1) j)) = _
  refine congrArg (V c main_v59) (funext fun a => Fin.ext ?_)
  match a with
  | ⟨0, _⟩ => show win4_4.index t (0 : Fin 2) * 1 + 1 * 0 = 0; omega
  | ⟨1, _⟩ => show win4_4.index t (1 : Fin 2) * 128 + 1 * j.val = j.val; omega

theorem read_second (c : Dev nD) (t : Fin cfg4.N) (o : Fin 16) (k : Fin 128) :
    iblk4 V c 5 t (ix2 o k) = V c main_arg16 (ix2 o k) := by
  obtain ⟨-, -, -, -, -, -, -, -, -, -, e0, e1, -⟩ := index_maps t
  show V c main_arg16 (((cfg4.win 5).blk t).view.emb (ix2 o k)) = _
  refine congrArg (V c main_arg16) (funext fun a => Fin.ext ?_)
  match a with
  | ⟨0, _⟩ => show win4_5.index t (0 : Fin 2) * 16 + 1 * o.val = o.val; omega
  | ⟨1, _⟩ => show win4_5.index t (1 : Fin 2) * 128 + 1 * k.val = k.val; omega

theorem read_bias2 (c : Dev nD) (t : Fin cfg4.N) (o : Fin 16) :
    iblk4 V c 6 t (ix2 (0 : Fin 1) o) = V c main_v60 (ix2 (0 : Fin 1) o) := by
  obtain ⟨-, -, -, -, -, -, -, -, -, -, -, -, e0, e1, -⟩ := index_maps t
  show V c main_v60 (((cfg4.win 6).blk t).view.emb (ix2 (0 : Fin 1) o)) = _
  refine congrArg (V c main_v60) (funext fun a => Fin.ext ?_)
  match a with
  | ⟨0, _⟩ => show win4_6.index t (0 : Fin 2) * 1 + 1 * 0 = 0; omega
  | ⟨1, _⟩ => show win4_6.index t (1 : Fin 2) * 16 + 1 * o.val = o.val; omega

/-- Where entry `(p, o)` of point `t`'s output block sits in the result array. -/
theorem out_emb (t : Fin cfg4.N) (p : Fin 2000) (o : Fin 16) :
    ((cfg4.win 7).blk t).view.emb (ix2 p o) = ix2 (rowOf t p) o := by
  obtain ⟨-, -, -, -, -, -, -, -, -, -, -, -, -, -, e0, e1⟩ := index_maps t
  refine funext fun a => Fin.ext ?_
  match a with
  | ⟨0, _⟩ => show win4_7.index t (0 : Fin 2) * 2000 + 1 * p.val = t.val * 2000 + p.val; omega
  | ⟨1, _⟩ => show win4_7.index t (1 : Fin 2) * 16 + 1 * o.val = o.val; omega

/-! ## What a point writes back, and the whole array -/

/-- The head of the arrays as region 4 finds them. -/
def head (c : Dev nD) : GraphNet.Arr 100000 16 :=
  GraphNet.ofRows (GraphNet.headTwo (GraphNet.rows (V c main_v32)) (GraphNet.rows (V c main_v56)) (GraphNet.rows (V c main_v57))
    (GraphNet.rows (V c main_v58)) (GraphNet.row (V c main_v59)) (GraphNet.rows (V c main_arg16)) (GraphNet.row (V c main_v60)))

/-- WHAT POINT `t` WRITES BACK is block `t` of the head of the whole arrays. -/
theorem flushed_eq (c : Dev nD) (t : Fin cfg4.N) :
    (dat4 V c).flushed 7 t = ((cfg4.win 7).blk t).view.read (Elt Ideal) (head V c) := by
  show (cfg4.win 7).cut (grid4.coords t) ((dat4 V c).after 7 t) = _
  rw [after4_7]
  unfold out4_7
  rw [View.canon_unit_zero zeros]
  simp only [View.ld_unit_zero (S := S2000x128) zeros, View.ld_unit_zero (S := S128x128) zeros,
    View.ld_unit_zero (S := S1x128) zeros, View.ld_unit_zero (S := S16x128) zeros, View.ld_unit_zero (S := S1x16) zeros]
  rw [DenseBlock.pay4_eq (iblk4 V c 0 t) (iblk4 V c 1 t) (iblk4 V c 2 t) (iblk4 V c 3 t) (iblk4 V c 4 t) (iblk4 V c 5 t) (iblk4 V c 6 t)]
  funext j
  obtain ⟨p, o, rfl⟩ : ∃ (p : Fin 2000) (o : Fin 16), j = ix2 p o := ⟨j 0, j 1, eq_ix2 j⟩
  show GraphNet.ofRows (GraphNet.headTwo (GraphNet.rows (iblk4 V c 0 t)) (GraphNet.rows (iblk4 V c 1 t)) (GraphNet.rows (iblk4 V c 2 t))
        (GraphNet.rows (iblk4 V c 3 t)) (GraphNet.row (iblk4 V c 4 t)) (GraphNet.rows (iblk4 V c 5 t)) (GraphNet.row (iblk4 V c 6 t))) (ix2 p o)
      = head V c (((cfg4.win 7).blk t).view.emb (ix2 p o))
  rw [out_emb t p o]
  show GraphNet.headTwo _ _ _ _ _ _ _ p o = GraphNet.headTwo _ _ _ _ _ _ _ (rowOf t p) o
  exact GraphNet.headTwo_congr_row p (rowOf t p) o (fun q => read_branch1 V c t p q) (fun q => read_branch2 V c t p q)
    (fun k q => read_first1 V c t k q) (fun k q => read_first2 V c t k q) (fun k => read_bias1 V c t k)
    (fun k => read_second V c t o k) (read_bias2 V c t o)

/-- An index of the result array is in point `t`'s block iff each coordinate is in the block's range on its axis. -/
theorem mem_blk (t : Fin cfg4.N) (i : S100000x16.Idx) :
    i ∈ ((cfg4.win 7).blk t).view.set ↔ ∀ a : Fin 2, win4_7.index t a * S2000x16.size a ≤ (i a).val ∧ (i a).val < win4_7.index t a * S2000x16.size a + S2000x16.size a := by
  show i ∈ ((View.whole main_v61).slice (win4_7.rect t)).set ↔ _
  rw [View.set_slice_whole, Rect.mem_set_unit]
  exact Iff.rfl

/-- The 50 blocks tile the array: row `r` is in block `r / 2000`. -/
theorem cover (i : S100000x16.Idx) :
    ∃ t : Fin cfg4.N, (cfg4.win 7).flush t = true ∧ i ∈ ((cfg4.win 7).blk t).view.set := by
  have hi0 : (i 0).val < 100000 := (i 0).isLt
  have hi1 : (i 1).val < 16 := (i 1).isLt
  have hN : (i 0).val / 2000 < cfg4.N := lt_of_lt_of_eq (by omega : (i 0).val / 2000 < 50) N_4.symm
  refine ⟨⟨(i 0).val / 2000, hN⟩, flush4_7 _, ?_⟩
  obtain ⟨-, -, -, -, -, -, -, -, -, -, -, -, -, -, e0, e1⟩ := index_maps ⟨(i 0).val / 2000, hN⟩
  rw [mem_blk]
  intro a
  match a with
  | ⟨0, _⟩ =>
    show win4_7.index ⟨(i 0).val / 2000, hN⟩ (0 : Fin 2) * 2000 ≤ (i 0).val ∧ (i 0).val < win4_7.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win4_7.index ⟨(i 0).val / 2000, hN⟩ (1 : Fin 2) * 16 ≤ (i 1).val ∧ (i 1).val < win4_7.index ⟨(i 0).val / 2000, hN⟩ (1 : Fin 2) * 16 + 16
    rw [e1]
    omega

/-- THE RESULT ARRAY after region 4: the head of the arrays as the region finds them. -/
theorem final (c : Dev nD) : (dat4 V c).arrAt 7 cfg4.N = head V c :=
  (dat4 V c).arrAt_eq_of_cover 7 (head V c) (fun t _ => flushed_eq V c t) cover

end Cert.KernelIdeal.HeadArray

end
-- ==== Proof.HostChain.lean ====
/-
  The graph's host chain, named once.

  From the 2 × 1600000 edge array: `src` is its first row and `dst` its second, each read back as
  a vector.  The in-degree `deg` of every node is ones scatter-added at the destinations into
  zeros.  The neighbour sum `agg f` of a feature array `f` gathers the source rows (a negative
  source index first moved up by the number of nodes) and scatter-adds them at the destinations
  into zeros.  Both programs apply these very operations; nothing below ever opens a gather or a
  scatter: they are carried as functions.
-/
import proofs.«104871_j37958920962736_2_alg».proof.KernelIdeal
import proofs.«104871_j37958920962736_2_alg».proof.Proof.Gen.KernelIdeal
import Idealize.ShloMosaic.PureOps.Ideal

noncomputable section

namespace Cert.KernelIdeal.HostChain

open Cert.KernelIdeal Cert.KernelIdeal.Gen Idealize.ShloMosaic

/-- The edge array's contents: 2 × 1600000 node numbers. -/
abbrev Edges : Type := (⟨S2x1600000, .i32⟩ : BufTy).Contents (Elt Ideal)

/-- The edges' source nodes. -/
def src (e : Edges) : IVec S1600000 32 :=
  shapeCast S1600000 (extractStridedSlice S1x1600000 ![0, 0] e slices_S2x1600000_S1x1600000_0_0) shapeCasts_S1x1600000_S1600000

/-- The edges' destination nodes. -/
def dst (e : Edges) : IVec S1600000 32 :=
  shapeCast S1600000 (extractStridedSlice S1x1600000 ![1, 0] e slices_S2x1600000_S1x1600000_1_0) shapeCasts_S1x1600000_S1600000

/-- Every node's in-degree. -/
def deg (e : Edges) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dst e))
    (broadcastInDim S1600000 ![] bcast_S_S1600000 (constant S_ .f32 0x3F800000#32))

/-- The in-degrees as a column. -/
def degCol (e : Edges) : FVec Ideal S100000x1 .f32 :=
  broadcastInDim S100000x1 ![0] bcast_S100000_S100000x1_0 (deg e)

/-- Every node's sum of its in-neighbours' feature rows. -/
def agg (e : Edges) (f : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst e))
    (Host.gather gather_S100000x128_S1600000x1_S1600000x128_1_0_n_n_0_1_1128 f
      (broadcastInDim S1600000x1 ![0] bcast_S1600000_S1600000x1_0
        (select (cmpi .slt (src e) (broadcastInDim S1600000 ![] bcast_S_S1600000 (constantI S_ 32 0#32)))
          (addi (src e) (broadcastInDim S1600000 ![] bcast_S_S1600000 (constantI S_ 32 100000#32)))
          (src e))))

end Cert.KernelIdeal.HostChain

end
-- ==== Proof.FoldCarried.lean ====
/-
  What the graph's buffers and the arguments hold at every boundary of the run.

  The first stretch of host operations computes, from the edge array, the source and destination
  vectors and the degree column; no later stretch and no region writes them, nor any argument: a
  stretch of host operations rewrites only its own result buffers, and a region only its output
  array.  So at each of the nine boundaries before the last region's exit those three buffers
  hold the graph's source, destination and degree, and every argument its launch contents.
-/
import proofs.«104871_j37958920962736_2_alg».proof.Proof.Gen.KernelIdeal.Frame
import proofs.«104871_j37958920962736_2_alg».proof.Proof.HostChain
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL.Sem
open Idealize.ShloMosaic.Pipeline (Dat)

/-- A buffer that no operation of a host stretch writes keeps its contents across the stretch. -/
macro "untouched" : tactic =>
  `(tactic| (refine StableHlo.after_of_forall_not_mem _ _ (List.forall_iff_forall_mem.mp ?_)
             simp only [hostOps0, hostOps1, hostOps2, hostOps3, hostOps4, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-- The graph's three buffers and the arguments at their values, in a valuation of core `c`'s buffers. -/
structure Carried (W : Valuation τ sig (Elt Ideal)) : Prop where
  src : (W (Proc.devRef .tc main_v1) : IVec S1600000 32) = HostChain.src (m ((c : Thread nD τ).loc main_arg1))
  dst : (W (Proc.devRef .tc main_v3) : IVec S1600000 32) = HostChain.dst (m ((c : Thread nD τ).loc main_arg1))
  deg : (W (Proc.devRef .tc main_v8) : FVec Ideal S100000x1 .f32) = HostChain.degCol (m ((c : Thread nD τ).loc main_arg1))
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)
  a15 : W (Proc.devRef .tc main_arg15) = m ((c : Thread nD τ).loc main_arg15)
  a16 : W (Proc.devRef .tc main_arg16) = m ((c : Thread nD τ).loc main_arg16)
  a17 : W (Proc.devRef .tc main_arg17) = m ((c : Thread nD τ).loc main_arg17)

/-! ## After the first stretch: the source, destination and degree computed from the edge array, the arguments untouched -/

theorem at1_src : (W1 m ρ c (Proc.devRef .tc main_v1) : IVec S1600000 32) = HostChain.src (m ((c : Thread nD τ).loc main_arg1)) := by
  dsimp only [W1, hostOps0]; after_results <;> rfl
theorem at1_dst : (W1 m ρ c (Proc.devRef .tc main_v3) : IVec S1600000 32) = HostChain.dst (m ((c : Thread nD τ).loc main_arg1)) := by
  dsimp only [W1, hostOps0]; after_results <;> rfl
theorem at1_deg : (W1 m ρ c (Proc.devRef .tc main_v8) : FVec Ideal S100000x1 .f32) = HostChain.degCol (m ((c : Thread nD τ).loc main_arg1)) := by
  dsimp only [W1, hostOps0]; after_results <;> rfl
theorem at1_a0 : W1 m ρ c (Proc.devRef .tc main_arg0) = m ((c : Thread nD τ).loc main_arg0) :=
  (show W1 m ρ c (Proc.devRef .tc main_arg0) = W0 m ρ c (Proc.devRef .tc main_arg0) by untouched).trans rfl
theorem at1_a1 : W1 m ρ c (Proc.devRef .tc main_arg1) = m ((c : Thread nD τ).loc main_arg1) :=
  (show W1 m ρ c (Proc.devRef .tc main_arg1) = W0 m ρ c (Proc.devRef .tc main_arg1) by untouched).trans rfl
theorem at1_a2 : W1 m ρ c (Proc.devRef .tc main_arg2) = m ((c : Thread nD τ).loc main_arg2) :=
  (show W1 m ρ c (Proc.devRef .tc main_arg2) = W0 m ρ c (Proc.devRef .tc main_arg2) by untouched).trans rfl
theorem at1_a3 : W1 m ρ c (Proc.devRef .tc main_arg3) = m ((c : Thread nD τ).loc main_arg3) :=
  (show W1 m ρ c (Proc.devRef .tc main_arg3) = W0 m ρ c (Proc.devRef .tc main_arg3) by untouched).trans rfl
theorem at1_a4 : W1 m ρ c (Proc.devRef .tc main_arg4) = m ((c : Thread nD τ).loc main_arg4) :=
  (show W1 m ρ c (Proc.devRef .tc main_arg4) = W0 m ρ c (Proc.devRef .tc main_arg4) by untouched).trans rfl
theorem at1_a5 : W1 m ρ c (Proc.devRef .tc main_arg5) = m ((c : Thread nD τ).loc main_arg5) :=
  (show W1 m ρ c (Proc.devRef .tc main_arg5) = W0 m ρ c (Proc.devRef .tc main_arg5) by untouched).trans rfl
theorem at1_a6 : W1 m ρ c (Proc.devRef .tc main_arg6) = m ((c : Thread nD τ).loc main_arg6) :=
  (show W1 m ρ c (Proc.devRef .tc main_arg6) = W0 m ρ c (Proc.devRef .tc main_arg6) by untouched).trans rfl
theorem at1_a7 : W1 m ρ c (Proc.devRef .tc main_arg7) = m ((c : Thread nD τ).loc main_arg7) :=
  (show W1 m ρ c (Proc.devRef .tc main_arg7) = W0 m ρ c (Proc.devRef .tc main_arg7) by untouched).trans rfl
theorem at1_a8 : W1 m ρ c (Proc.devRef .tc main_arg8) = m ((c : Thread nD τ).loc main_arg8) :=
  (show W1 m ρ c (Proc.devRef .tc main_arg8) = W0 m ρ c (Proc.devRef .tc main_arg8) by untouched).trans rfl
theorem at1_a9 : W1 m ρ c (Proc.devRef .tc main_arg9) = m ((c : Thread nD τ).loc main_arg9) :=
  (show W1 m ρ c (Proc.devRef .tc main_arg9) = W0 m ρ c (Proc.devRef .tc main_arg9) by untouched).trans rfl
theorem at1_a10 : W1 m ρ c (Proc.devRef .tc main_arg10) = m ((c : Thread nD τ).loc main_arg10) :=
  (show W1 m ρ c (Proc.devRef .tc main_arg10) = W0 m ρ c (Proc.devRef .tc main_arg10) by untouched).trans rfl
theorem at1_a11 : W1 m ρ c (Proc.devRef .tc main_arg11) = m ((c : Thread nD τ).loc main_arg11) :=
  (show W1 m ρ c (Proc.devRef .tc main_arg11) = W0 m ρ c (Proc.devRef .tc main_arg11) by untouched).trans rfl
theorem at1_a12 : W1 m ρ c (Proc.devRef .tc main_arg12) = m ((c : Thread nD τ).loc main_arg12) :=
  (show W1 m ρ c (Proc.devRef .tc main_arg12) = W0 m ρ c (Proc.devRef .tc main_arg12) by untouched).trans rfl
theorem at1_a13 : W1 m ρ c (Proc.devRef .tc main_arg13) = m ((c : Thread nD τ).loc main_arg13) :=
  (show W1 m ρ c (Proc.devRef .tc main_arg13) = W0 m ρ c (Proc.devRef .tc main_arg13) by untouched).trans rfl
theorem at1_a14 : W1 m ρ c (Proc.devRef .tc main_arg14) = m ((c : Thread nD τ).loc main_arg14) :=
  (show W1 m ρ c (Proc.devRef .tc main_arg14) = W0 m ρ c (Proc.devRef .tc main_arg14) by untouched).trans rfl
theorem at1_a15 : W1 m ρ c (Proc.devRef .tc main_arg15) = m ((c : Thread nD τ).loc main_arg15) :=
  (show W1 m ρ c (Proc.devRef .tc main_arg15) = W0 m ρ c (Proc.devRef .tc main_arg15) by untouched).trans rfl
theorem at1_a16 : W1 m ρ c (Proc.devRef .tc main_arg16) = m ((c : Thread nD τ).loc main_arg16) :=
  (show W1 m ρ c (Proc.devRef .tc main_arg16) = W0 m ρ c (Proc.devRef .tc main_arg16) by untouched).trans rfl
theorem at1_a17 : W1 m ρ c (Proc.devRef .tc main_arg17) = m ((c : Thread nD τ).loc main_arg17) :=
  (show W1 m ρ c (Proc.devRef .tc main_arg17) = W0 m ρ c (Proc.devRef .tc main_arg17) by untouched).trans rfl

/-- The first boundary. -/
theorem at1 : Carried m c (W1 m ρ c) :=
  ⟨at1_src m ρ c, at1_dst m ρ c, at1_deg m ρ c, at1_a0 m ρ c, at1_a1 m ρ c, at1_a2 m ρ c, at1_a3 m ρ c, at1_a4 m ρ c, at1_a5 m ρ c, at1_a6 m ρ c, at1_a7 m ρ c, at1_a8 m ρ c, at1_a9 m ρ c, at1_a10 m ρ c, at1_a11 m ρ c, at1_a12 m ρ c, at1_a13 m ρ c, at1_a14 m ρ c, at1_a15 m ρ c, at1_a16 m ρ c, at1_a17 m ρ c⟩

/-! ## Region 0 writes its output array only -/

theorem at2_src : (W2 m ρ c (Proc.devRef .tc main_v1) : IVec S1600000 32) = HostChain.src (m ((c : Thread nD τ).loc main_arg1)) :=
  (W2_of_ne m ρ c main_v1 (by decide)).trans (at1_src m ρ c)
theorem at2_dst : (W2 m ρ c (Proc.devRef .tc main_v3) : IVec S1600000 32) = HostChain.dst (m ((c : Thread nD τ).loc main_arg1)) :=
  (W2_of_ne m ρ c main_v3 (by decide)).trans (at1_dst m ρ c)
theorem at2_deg : (W2 m ρ c (Proc.devRef .tc main_v8) : FVec Ideal S100000x1 .f32) = HostChain.degCol (m ((c : Thread nD τ).loc main_arg1)) :=
  ((W2_arr m ρ c 1).trans (((dat0 (V1 m ρ) c).arrAt_in 1 rfl _).trans (A_eq0 (V1 m ρ) c 1))).trans (at1_deg m ρ c)
theorem at2_a0 : W2 m ρ c (Proc.devRef .tc main_arg0) = m ((c : Thread nD τ).loc main_arg0) :=
  ((W2_arr m ρ c 2).trans (((dat0 (V1 m ρ) c).arrAt_in 2 rfl _).trans (A_eq0 (V1 m ρ) c 2))).trans (at1_a0 m ρ c)
theorem at2_a1 : W2 m ρ c (Proc.devRef .tc main_arg1) = m ((c : Thread nD τ).loc main_arg1) :=
  (W2_of_ne m ρ c main_arg1 (by decide)).trans (at1_a1 m ρ c)
theorem at2_a2 : W2 m ρ c (Proc.devRef .tc main_arg2) = m ((c : Thread nD τ).loc main_arg2) :=
  ((W2_arr m ρ c 3).trans (((dat0 (V1 m ρ) c).arrAt_in 3 rfl _).trans (A_eq0 (V1 m ρ) c 3))).trans (at1_a2 m ρ c)
theorem at2_a3 : W2 m ρ c (Proc.devRef .tc main_arg3) = m ((c : Thread nD τ).loc main_arg3) :=
  (W2_of_ne m ρ c main_arg3 (by decide)).trans (at1_a3 m ρ c)
theorem at2_a4 : W2 m ρ c (Proc.devRef .tc main_arg4) = m ((c : Thread nD τ).loc main_arg4) :=
  ((W2_arr m ρ c 5).trans (((dat0 (V1 m ρ) c).arrAt_in 5 rfl _).trans (A_eq0 (V1 m ρ) c 5))).trans (at1_a4 m ρ c)
theorem at2_a5 : W2 m ρ c (Proc.devRef .tc main_arg5) = m ((c : Thread nD τ).loc main_arg5) :=
  (W2_of_ne m ρ c main_arg5 (by decide)).trans (at1_a5 m ρ c)
theorem at2_a6 : W2 m ρ c (Proc.devRef .tc main_arg6) = m ((c : Thread nD τ).loc main_arg6) :=
  (W2_of_ne m ρ c main_arg6 (by decide)).trans (at1_a6 m ρ c)
theorem at2_a7 : W2 m ρ c (Proc.devRef .tc main_arg7) = m ((c : Thread nD τ).loc main_arg7) :=
  (W2_of_ne m ρ c main_arg7 (by decide)).trans (at1_a7 m ρ c)
theorem at2_a8 : W2 m ρ c (Proc.devRef .tc main_arg8) = m ((c : Thread nD τ).loc main_arg8) :=
  (W2_of_ne m ρ c main_arg8 (by decide)).trans (at1_a8 m ρ c)
theorem at2_a9 : W2 m ρ c (Proc.devRef .tc main_arg9) = m ((c : Thread nD τ).loc main_arg9) :=
  (W2_of_ne m ρ c main_arg9 (by decide)).trans (at1_a9 m ρ c)
theorem at2_a10 : W2 m ρ c (Proc.devRef .tc main_arg10) = m ((c : Thread nD τ).loc main_arg10) :=
  (W2_of_ne m ρ c main_arg10 (by decide)).trans (at1_a10 m ρ c)
theorem at2_a11 : W2 m ρ c (Proc.devRef .tc main_arg11) = m ((c : Thread nD τ).loc main_arg11) :=
  (W2_of_ne m ρ c main_arg11 (by decide)).trans (at1_a11 m ρ c)
theorem at2_a12 : W2 m ρ c (Proc.devRef .tc main_arg12) = m ((c : Thread nD τ).loc main_arg12) :=
  (W2_of_ne m ρ c main_arg12 (by decide)).trans (at1_a12 m ρ c)
theorem at2_a13 : W2 m ρ c (Proc.devRef .tc main_arg13) = m ((c : Thread nD τ).loc main_arg13) :=
  (W2_of_ne m ρ c main_arg13 (by decide)).trans (at1_a13 m ρ c)
theorem at2_a14 : W2 m ρ c (Proc.devRef .tc main_arg14) = m ((c : Thread nD τ).loc main_arg14) :=
  (W2_of_ne m ρ c main_arg14 (by decide)).trans (at1_a14 m ρ c)
theorem at2_a15 : W2 m ρ c (Proc.devRef .tc main_arg15) = m ((c : Thread nD τ).loc main_arg15) :=
  (W2_of_ne m ρ c main_arg15 (by decide)).trans (at1_a15 m ρ c)
theorem at2_a16 : W2 m ρ c (Proc.devRef .tc main_arg16) = m ((c : Thread nD τ).loc main_arg16) :=
  (W2_of_ne m ρ c main_arg16 (by decide)).trans (at1_a16 m ρ c)
theorem at2_a17 : W2 m ρ c (Proc.devRef .tc main_arg17) = m ((c : Thread nD τ).loc main_arg17) :=
  (W2_of_ne m ρ c main_arg17 (by decide)).trans (at1_a17 m ρ c)

/-- After region 0. -/
theorem at2 : Carried m c (W2 m ρ c) :=
  ⟨at2_src m ρ c, at2_dst m ρ c, at2_deg m ρ c, at2_a0 m ρ c, at2_a1 m ρ c, at2_a2 m ρ c, at2_a3 m ρ c, at2_a4 m ρ c, at2_a5 m ρ c, at2_a6 m ρ c, at2_a7 m ρ c, at2_a8 m ρ c, at2_a9 m ρ c, at2_a10 m ρ c, at2_a11 m ρ c, at2_a12 m ρ c, at2_a13 m ρ c, at2_a14 m ρ c, at2_a15 m ρ c, at2_a16 m ρ c, at2_a17 m ρ c⟩

/-! ## Stretch 1 of host operations writes none of them -/

theorem at3_src : (W3 m ρ c (Proc.devRef .tc main_v1) : IVec S1600000 32) = HostChain.src (m ((c : Thread nD τ).loc main_arg1)) :=
  (show W3 m ρ c (Proc.devRef .tc main_v1) = W2 m ρ c (Proc.devRef .tc main_v1) by untouched).trans (at2_src m ρ c)
theorem at3_dst : (W3 m ρ c (Proc.devRef .tc main_v3) : IVec S1600000 32) = HostChain.dst (m ((c : Thread nD τ).loc main_arg1)) :=
  (show W3 m ρ c (Proc.devRef .tc main_v3) = W2 m ρ c (Proc.devRef .tc main_v3) by untouched).trans (at2_dst m ρ c)
theorem at3_deg : (W3 m ρ c (Proc.devRef .tc main_v8) : FVec Ideal S100000x1 .f32) = HostChain.degCol (m ((c : Thread nD τ).loc main_arg1)) :=
  (show W3 m ρ c (Proc.devRef .tc main_v8) = W2 m ρ c (Proc.devRef .tc main_v8) by untouched).trans (at2_deg m ρ c)
theorem at3_a0 : W3 m ρ c (Proc.devRef .tc main_arg0) = m ((c : Thread nD τ).loc main_arg0) :=
  (show W3 m ρ c (Proc.devRef .tc main_arg0) = W2 m ρ c (Proc.devRef .tc main_arg0) by untouched).trans (at2_a0 m ρ c)
theorem at3_a1 : W3 m ρ c (Proc.devRef .tc main_arg1) = m ((c : Thread nD τ).loc main_arg1) :=
  (show W3 m ρ c (Proc.devRef .tc main_arg1) = W2 m ρ c (Proc.devRef .tc main_arg1) by untouched).trans (at2_a1 m ρ c)
theorem at3_a2 : W3 m ρ c (Proc.devRef .tc main_arg2) = m ((c : Thread nD τ).loc main_arg2) :=
  (show W3 m ρ c (Proc.devRef .tc main_arg2) = W2 m ρ c (Proc.devRef .tc main_arg2) by untouched).trans (at2_a2 m ρ c)
theorem at3_a3 : W3 m ρ c (Proc.devRef .tc main_arg3) = m ((c : Thread nD τ).loc main_arg3) :=
  (show W3 m ρ c (Proc.devRef .tc main_arg3) = W2 m ρ c (Proc.devRef .tc main_arg3) by untouched).trans (at2_a3 m ρ c)
theorem at3_a4 : W3 m ρ c (Proc.devRef .tc main_arg4) = m ((c : Thread nD τ).loc main_arg4) :=
  (show W3 m ρ c (Proc.devRef .tc main_arg4) = W2 m ρ c (Proc.devRef .tc main_arg4) by untouched).trans (at2_a4 m ρ c)
theorem at3_a5 : W3 m ρ c (Proc.devRef .tc main_arg5) = m ((c : Thread nD τ).loc main_arg5) :=
  (show W3 m ρ c (Proc.devRef .tc main_arg5) = W2 m ρ c (Proc.devRef .tc main_arg5) by untouched).trans (at2_a5 m ρ c)
theorem at3_a6 : W3 m ρ c (Proc.devRef .tc main_arg6) = m ((c : Thread nD τ).loc main_arg6) :=
  (show W3 m ρ c (Proc.devRef .tc main_arg6) = W2 m ρ c (Proc.devRef .tc main_arg6) by untouched).trans (at2_a6 m ρ c)
theorem at3_a7 : W3 m ρ c (Proc.devRef .tc main_arg7) = m ((c : Thread nD τ).loc main_arg7) :=
  (show W3 m ρ c (Proc.devRef .tc main_arg7) = W2 m ρ c (Proc.devRef .tc main_arg7) by untouched).trans (at2_a7 m ρ c)
theorem at3_a8 : W3 m ρ c (Proc.devRef .tc main_arg8) = m ((c : Thread nD τ).loc main_arg8) :=
  (show W3 m ρ c (Proc.devRef .tc main_arg8) = W2 m ρ c (Proc.devRef .tc main_arg8) by untouched).trans (at2_a8 m ρ c)
theorem at3_a9 : W3 m ρ c (Proc.devRef .tc main_arg9) = m ((c : Thread nD τ).loc main_arg9) :=
  (show W3 m ρ c (Proc.devRef .tc main_arg9) = W2 m ρ c (Proc.devRef .tc main_arg9) by untouched).trans (at2_a9 m ρ c)
theorem at3_a10 : W3 m ρ c (Proc.devRef .tc main_arg10) = m ((c : Thread nD τ).loc main_arg10) :=
  (show W3 m ρ c (Proc.devRef .tc main_arg10) = W2 m ρ c (Proc.devRef .tc main_arg10) by untouched).trans (at2_a10 m ρ c)
theorem at3_a11 : W3 m ρ c (Proc.devRef .tc main_arg11) = m ((c : Thread nD τ).loc main_arg11) :=
  (show W3 m ρ c (Proc.devRef .tc main_arg11) = W2 m ρ c (Proc.devRef .tc main_arg11) by untouched).trans (at2_a11 m ρ c)
theorem at3_a12 : W3 m ρ c (Proc.devRef .tc main_arg12) = m ((c : Thread nD τ).loc main_arg12) :=
  (show W3 m ρ c (Proc.devRef .tc main_arg12) = W2 m ρ c (Proc.devRef .tc main_arg12) by untouched).trans (at2_a12 m ρ c)
theorem at3_a13 : W3 m ρ c (Proc.devRef .tc main_arg13) = m ((c : Thread nD τ).loc main_arg13) :=
  (show W3 m ρ c (Proc.devRef .tc main_arg13) = W2 m ρ c (Proc.devRef .tc main_arg13) by untouched).trans (at2_a13 m ρ c)
theorem at3_a14 : W3 m ρ c (Proc.devRef .tc main_arg14) = m ((c : Thread nD τ).loc main_arg14) :=
  (show W3 m ρ c (Proc.devRef .tc main_arg14) = W2 m ρ c (Proc.devRef .tc main_arg14) by untouched).trans (at2_a14 m ρ c)
theorem at3_a15 : W3 m ρ c (Proc.devRef .tc main_arg15) = m ((c : Thread nD τ).loc main_arg15) :=
  (show W3 m ρ c (Proc.devRef .tc main_arg15) = W2 m ρ c (Proc.devRef .tc main_arg15) by untouched).trans (at2_a15 m ρ c)
theorem at3_a16 : W3 m ρ c (Proc.devRef .tc main_arg16) = m ((c : Thread nD τ).loc main_arg16) :=
  (show W3 m ρ c (Proc.devRef .tc main_arg16) = W2 m ρ c (Proc.devRef .tc main_arg16) by untouched).trans (at2_a16 m ρ c)
theorem at3_a17 : W3 m ρ c (Proc.devRef .tc main_arg17) = m ((c : Thread nD τ).loc main_arg17) :=
  (show W3 m ρ c (Proc.devRef .tc main_arg17) = W2 m ρ c (Proc.devRef .tc main_arg17) by untouched).trans (at2_a17 m ρ c)

/-- Before region 1. -/
theorem at3 : Carried m c (W3 m ρ c) :=
  ⟨at3_src m ρ c, at3_dst m ρ c, at3_deg m ρ c, at3_a0 m ρ c, at3_a1 m ρ c, at3_a2 m ρ c, at3_a3 m ρ c, at3_a4 m ρ c, at3_a5 m ρ c, at3_a6 m ρ c, at3_a7 m ρ c, at3_a8 m ρ c, at3_a9 m ρ c, at3_a10 m ρ c, at3_a11 m ρ c, at3_a12 m ρ c, at3_a13 m ρ c, at3_a14 m ρ c, at3_a15 m ρ c, at3_a16 m ρ c, at3_a17 m ρ c⟩

/-! ## Region 1 -/

theorem at4_src : (W4 m ρ c (Proc.devRef .tc main_v1) : IVec S1600000 32) = HostChain.src (m ((c : Thread nD τ).loc main_arg1)) :=
  (W4_of_ne m ρ c main_v1 (by decide)).trans (at3_src m ρ c)
theorem at4_dst : (W4 m ρ c (Proc.devRef .tc main_v3) : IVec S1600000 32) = HostChain.dst (m ((c : Thread nD τ).loc main_arg1)) :=
  (W4_of_ne m ρ c main_v3 (by decide)).trans (at3_dst m ρ c)
theorem at4_deg : (W4 m ρ c (Proc.devRef .tc main_v8) : FVec Ideal S100000x1 .f32) = HostChain.degCol (m ((c : Thread nD τ).loc main_arg1)) :=
  ((W4_arr m ρ c 1).trans (((dat1 (V3 m ρ) c).arrAt_in 1 rfl _).trans (A_eq1 (V3 m ρ) c 1))).trans (at3_deg m ρ c)
theorem at4_a0 : W4 m ρ c (Proc.devRef .tc main_arg0) = m ((c : Thread nD τ).loc main_arg0) :=
  (W4_of_ne m ρ c main_arg0 (by decide)).trans (at3_a0 m ρ c)
theorem at4_a1 : W4 m ρ c (Proc.devRef .tc main_arg1) = m ((c : Thread nD τ).loc main_arg1) :=
  (W4_of_ne m ρ c main_arg1 (by decide)).trans (at3_a1 m ρ c)
theorem at4_a2 : W4 m ρ c (Proc.devRef .tc main_arg2) = m ((c : Thread nD τ).loc main_arg2) :=
  (W4_of_ne m ρ c main_arg2 (by decide)).trans (at3_a2 m ρ c)
theorem at4_a3 : W4 m ρ c (Proc.devRef .tc main_arg3) = m ((c : Thread nD τ).loc main_arg3) :=
  (W4_of_ne m ρ c main_arg3 (by decide)).trans (at3_a3 m ρ c)
theorem at4_a4 : W4 m ρ c (Proc.devRef .tc main_arg4) = m ((c : Thread nD τ).loc main_arg4) :=
  (W4_of_ne m ρ c main_arg4 (by decide)).trans (at3_a4 m ρ c)
theorem at4_a5 : W4 m ρ c (Proc.devRef .tc main_arg5) = m ((c : Thread nD τ).loc main_arg5) :=
  ((W4_arr m ρ c 3).trans (((dat1 (V3 m ρ) c).arrAt_in 3 rfl _).trans (A_eq1 (V3 m ρ) c 3))).trans (at3_a5 m ρ c)
theorem at4_a6 : W4 m ρ c (Proc.devRef .tc main_arg6) = m ((c : Thread nD τ).loc main_arg6) :=
  (W4_of_ne m ρ c main_arg6 (by decide)).trans (at3_a6 m ρ c)
theorem at4_a7 : W4 m ρ c (Proc.devRef .tc main_arg7) = m ((c : Thread nD τ).loc main_arg7) :=
  ((W4_arr m ρ c 5).trans (((dat1 (V3 m ρ) c).arrAt_in 5 rfl _).trans (A_eq1 (V3 m ρ) c 5))).trans (at3_a7 m ρ c)
theorem at4_a8 : W4 m ρ c (Proc.devRef .tc main_arg8) = m ((c : Thread nD τ).loc main_arg8) :=
  (W4_of_ne m ρ c main_arg8 (by decide)).trans (at3_a8 m ρ c)
theorem at4_a9 : W4 m ρ c (Proc.devRef .tc main_arg9) = m ((c : Thread nD τ).loc main_arg9) :=
  (W4_of_ne m ρ c main_arg9 (by decide)).trans (at3_a9 m ρ c)
theorem at4_a10 : W4 m ρ c (Proc.devRef .tc main_arg10) = m ((c : Thread nD τ).loc main_arg10) :=
  (W4_of_ne m ρ c main_arg10 (by decide)).trans (at3_a10 m ρ c)
theorem at4_a11 : W4 m ρ c (Proc.devRef .tc main_arg11) = m ((c : Thread nD τ).loc main_arg11) :=
  (W4_of_ne m ρ c main_arg11 (by decide)).trans (at3_a11 m ρ c)
theorem at4_a12 : W4 m ρ c (Proc.devRef .tc main_arg12) = m ((c : Thread nD τ).loc main_arg12) :=
  (W4_of_ne m ρ c main_arg12 (by decide)).trans (at3_a12 m ρ c)
theorem at4_a13 : W4 m ρ c (Proc.devRef .tc main_arg13) = m ((c : Thread nD τ).loc main_arg13) :=
  (W4_of_ne m ρ c main_arg13 (by decide)).trans (at3_a13 m ρ c)
theorem at4_a14 : W4 m ρ c (Proc.devRef .tc main_arg14) = m ((c : Thread nD τ).loc main_arg14) :=
  (W4_of_ne m ρ c main_arg14 (by decide)).trans (at3_a14 m ρ c)
theorem at4_a15 : W4 m ρ c (Proc.devRef .tc main_arg15) = m ((c : Thread nD τ).loc main_arg15) :=
  (W4_of_ne m ρ c main_arg15 (by decide)).trans (at3_a15 m ρ c)
theorem at4_a16 : W4 m ρ c (Proc.devRef .tc main_arg16) = m ((c : Thread nD τ).loc main_arg16) :=
  (W4_of_ne m ρ c main_arg16 (by decide)).trans (at3_a16 m ρ c)
theorem at4_a17 : W4 m ρ c (Proc.devRef .tc main_arg17) = m ((c : Thread nD τ).loc main_arg17) :=
  (W4_of_ne m ρ c main_arg17 (by decide)).trans (at3_a17 m ρ c)

/-- After region 1. -/
theorem at4 : Carried m c (W4 m ρ c) :=
  ⟨at4_src m ρ c, at4_dst m ρ c, at4_deg m ρ c, at4_a0 m ρ c, at4_a1 m ρ c, at4_a2 m ρ c, at4_a3 m ρ c, at4_a4 m ρ c, at4_a5 m ρ c, at4_a6 m ρ c, at4_a7 m ρ c, at4_a8 m ρ c, at4_a9 m ρ c, at4_a10 m ρ c, at4_a11 m ρ c, at4_a12 m ρ c, at4_a13 m ρ c, at4_a14 m ρ c, at4_a15 m ρ c, at4_a16 m ρ c, at4_a17 m ρ c⟩

/-! ## Stretch 2 -/

theorem at5_src : (W5 m ρ c (Proc.devRef .tc main_v1) : IVec S1600000 32) = HostChain.src (m ((c : Thread nD τ).loc main_arg1)) :=
  (show W5 m ρ c (Proc.devRef .tc main_v1) = W4 m ρ c (Proc.devRef .tc main_v1) by untouched).trans (at4_src m ρ c)
theorem at5_dst : (W5 m ρ c (Proc.devRef .tc main_v3) : IVec S1600000 32) = HostChain.dst (m ((c : Thread nD τ).loc main_arg1)) :=
  (show W5 m ρ c (Proc.devRef .tc main_v3) = W4 m ρ c (Proc.devRef .tc main_v3) by untouched).trans (at4_dst m ρ c)
theorem at5_deg : (W5 m ρ c (Proc.devRef .tc main_v8) : FVec Ideal S100000x1 .f32) = HostChain.degCol (m ((c : Thread nD τ).loc main_arg1)) :=
  (show W5 m ρ c (Proc.devRef .tc main_v8) = W4 m ρ c (Proc.devRef .tc main_v8) by untouched).trans (at4_deg m ρ c)
theorem at5_a0 : W5 m ρ c (Proc.devRef .tc main_arg0) = m ((c : Thread nD τ).loc main_arg0) :=
  (show W5 m ρ c (Proc.devRef .tc main_arg0) = W4 m ρ c (Proc.devRef .tc main_arg0) by untouched).trans (at4_a0 m ρ c)
theorem at5_a1 : W5 m ρ c (Proc.devRef .tc main_arg1) = m ((c : Thread nD τ).loc main_arg1) :=
  (show W5 m ρ c (Proc.devRef .tc main_arg1) = W4 m ρ c (Proc.devRef .tc main_arg1) by untouched).trans (at4_a1 m ρ c)
theorem at5_a2 : W5 m ρ c (Proc.devRef .tc main_arg2) = m ((c : Thread nD τ).loc main_arg2) :=
  (show W5 m ρ c (Proc.devRef .tc main_arg2) = W4 m ρ c (Proc.devRef .tc main_arg2) by untouched).trans (at4_a2 m ρ c)
theorem at5_a3 : W5 m ρ c (Proc.devRef .tc main_arg3) = m ((c : Thread nD τ).loc main_arg3) :=
  (show W5 m ρ c (Proc.devRef .tc main_arg3) = W4 m ρ c (Proc.devRef .tc main_arg3) by untouched).trans (at4_a3 m ρ c)
theorem at5_a4 : W5 m ρ c (Proc.devRef .tc main_arg4) = m ((c : Thread nD τ).loc main_arg4) :=
  (show W5 m ρ c (Proc.devRef .tc main_arg4) = W4 m ρ c (Proc.devRef .tc main_arg4) by untouched).trans (at4_a4 m ρ c)
theorem at5_a5 : W5 m ρ c (Proc.devRef .tc main_arg5) = m ((c : Thread nD τ).loc main_arg5) :=
  (show W5 m ρ c (Proc.devRef .tc main_arg5) = W4 m ρ c (Proc.devRef .tc main_arg5) by untouched).trans (at4_a5 m ρ c)
theorem at5_a6 : W5 m ρ c (Proc.devRef .tc main_arg6) = m ((c : Thread nD τ).loc main_arg6) :=
  (show W5 m ρ c (Proc.devRef .tc main_arg6) = W4 m ρ c (Proc.devRef .tc main_arg6) by untouched).trans (at4_a6 m ρ c)
theorem at5_a7 : W5 m ρ c (Proc.devRef .tc main_arg7) = m ((c : Thread nD τ).loc main_arg7) :=
  (show W5 m ρ c (Proc.devRef .tc main_arg7) = W4 m ρ c (Proc.devRef .tc main_arg7) by untouched).trans (at4_a7 m ρ c)
theorem at5_a8 : W5 m ρ c (Proc.devRef .tc main_arg8) = m ((c : Thread nD τ).loc main_arg8) :=
  (show W5 m ρ c (Proc.devRef .tc main_arg8) = W4 m ρ c (Proc.devRef .tc main_arg8) by untouched).trans (at4_a8 m ρ c)
theorem at5_a9 : W5 m ρ c (Proc.devRef .tc main_arg9) = m ((c : Thread nD τ).loc main_arg9) :=
  (show W5 m ρ c (Proc.devRef .tc main_arg9) = W4 m ρ c (Proc.devRef .tc main_arg9) by untouched).trans (at4_a9 m ρ c)
theorem at5_a10 : W5 m ρ c (Proc.devRef .tc main_arg10) = m ((c : Thread nD τ).loc main_arg10) :=
  (show W5 m ρ c (Proc.devRef .tc main_arg10) = W4 m ρ c (Proc.devRef .tc main_arg10) by untouched).trans (at4_a10 m ρ c)
theorem at5_a11 : W5 m ρ c (Proc.devRef .tc main_arg11) = m ((c : Thread nD τ).loc main_arg11) :=
  (show W5 m ρ c (Proc.devRef .tc main_arg11) = W4 m ρ c (Proc.devRef .tc main_arg11) by untouched).trans (at4_a11 m ρ c)
theorem at5_a12 : W5 m ρ c (Proc.devRef .tc main_arg12) = m ((c : Thread nD τ).loc main_arg12) :=
  (show W5 m ρ c (Proc.devRef .tc main_arg12) = W4 m ρ c (Proc.devRef .tc main_arg12) by untouched).trans (at4_a12 m ρ c)
theorem at5_a13 : W5 m ρ c (Proc.devRef .tc main_arg13) = m ((c : Thread nD τ).loc main_arg13) :=
  (show W5 m ρ c (Proc.devRef .tc main_arg13) = W4 m ρ c (Proc.devRef .tc main_arg13) by untouched).trans (at4_a13 m ρ c)
theorem at5_a14 : W5 m ρ c (Proc.devRef .tc main_arg14) = m ((c : Thread nD τ).loc main_arg14) :=
  (show W5 m ρ c (Proc.devRef .tc main_arg14) = W4 m ρ c (Proc.devRef .tc main_arg14) by untouched).trans (at4_a14 m ρ c)
theorem at5_a15 : W5 m ρ c (Proc.devRef .tc main_arg15) = m ((c : Thread nD τ).loc main_arg15) :=
  (show W5 m ρ c (Proc.devRef .tc main_arg15) = W4 m ρ c (Proc.devRef .tc main_arg15) by untouched).trans (at4_a15 m ρ c)
theorem at5_a16 : W5 m ρ c (Proc.devRef .tc main_arg16) = m ((c : Thread nD τ).loc main_arg16) :=
  (show W5 m ρ c (Proc.devRef .tc main_arg16) = W4 m ρ c (Proc.devRef .tc main_arg16) by untouched).trans (at4_a16 m ρ c)
theorem at5_a17 : W5 m ρ c (Proc.devRef .tc main_arg17) = m ((c : Thread nD τ).loc main_arg17) :=
  (show W5 m ρ c (Proc.devRef .tc main_arg17) = W4 m ρ c (Proc.devRef .tc main_arg17) by untouched).trans (at4_a17 m ρ c)

/-- Before region 2. -/
theorem at5 : Carried m c (W5 m ρ c) :=
  ⟨at5_src m ρ c, at5_dst m ρ c, at5_deg m ρ c, at5_a0 m ρ c, at5_a1 m ρ c, at5_a2 m ρ c, at5_a3 m ρ c, at5_a4 m ρ c, at5_a5 m ρ c, at5_a6 m ρ c, at5_a7 m ρ c, at5_a8 m ρ c, at5_a9 m ρ c, at5_a10 m ρ c, at5_a11 m ρ c, at5_a12 m ρ c, at5_a13 m ρ c, at5_a14 m ρ c, at5_a15 m ρ c, at5_a16 m ρ c, at5_a17 m ρ c⟩

/-! ## Region 2 -/

theorem at6_src : (W6 m ρ c (Proc.devRef .tc main_v1) : IVec S1600000 32) = HostChain.src (m ((c : Thread nD τ).loc main_arg1)) :=
  (W6_of_ne m ρ c main_v1 (by decide)).trans (at5_src m ρ c)
theorem at6_dst : (W6 m ρ c (Proc.devRef .tc main_v3) : IVec S1600000 32) = HostChain.dst (m ((c : Thread nD τ).loc main_arg1)) :=
  (W6_of_ne m ρ c main_v3 (by decide)).trans (at5_dst m ρ c)
theorem at6_deg : (W6 m ρ c (Proc.devRef .tc main_v8) : FVec Ideal S100000x1 .f32) = HostChain.degCol (m ((c : Thread nD τ).loc main_arg1)) :=
  ((W6_arr m ρ c 1).trans (((dat2 (V5 m ρ) c).arrAt_in 1 rfl _).trans (A_eq2 (V5 m ρ) c 1))).trans (at5_deg m ρ c)
theorem at6_a0 : W6 m ρ c (Proc.devRef .tc main_arg0) = m ((c : Thread nD τ).loc main_arg0) :=
  ((W6_arr m ρ c 2).trans (((dat2 (V5 m ρ) c).arrAt_in 2 rfl _).trans (A_eq2 (V5 m ρ) c 2))).trans (at5_a0 m ρ c)
theorem at6_a1 : W6 m ρ c (Proc.devRef .tc main_arg1) = m ((c : Thread nD τ).loc main_arg1) :=
  (W6_of_ne m ρ c main_arg1 (by decide)).trans (at5_a1 m ρ c)
theorem at6_a2 : W6 m ρ c (Proc.devRef .tc main_arg2) = m ((c : Thread nD τ).loc main_arg2) :=
  (W6_of_ne m ρ c main_arg2 (by decide)).trans (at5_a2 m ρ c)
theorem at6_a3 : W6 m ρ c (Proc.devRef .tc main_arg3) = m ((c : Thread nD τ).loc main_arg3) :=
  (W6_of_ne m ρ c main_arg3 (by decide)).trans (at5_a3 m ρ c)
theorem at6_a4 : W6 m ρ c (Proc.devRef .tc main_arg4) = m ((c : Thread nD τ).loc main_arg4) :=
  (W6_of_ne m ρ c main_arg4 (by decide)).trans (at5_a4 m ρ c)
theorem at6_a5 : W6 m ρ c (Proc.devRef .tc main_arg5) = m ((c : Thread nD τ).loc main_arg5) :=
  (W6_of_ne m ρ c main_arg5 (by decide)).trans (at5_a5 m ρ c)
theorem at6_a6 : W6 m ρ c (Proc.devRef .tc main_arg6) = m ((c : Thread nD τ).loc main_arg6) :=
  (W6_of_ne m ρ c main_arg6 (by decide)).trans (at5_a6 m ρ c)
theorem at6_a7 : W6 m ρ c (Proc.devRef .tc main_arg7) = m ((c : Thread nD τ).loc main_arg7) :=
  (W6_of_ne m ρ c main_arg7 (by decide)).trans (at5_a7 m ρ c)
theorem at6_a8 : W6 m ρ c (Proc.devRef .tc main_arg8) = m ((c : Thread nD τ).loc main_arg8) :=
  ((W6_arr m ρ c 3).trans (((dat2 (V5 m ρ) c).arrAt_in 3 rfl _).trans (A_eq2 (V5 m ρ) c 3))).trans (at5_a8 m ρ c)
theorem at6_a9 : W6 m ρ c (Proc.devRef .tc main_arg9) = m ((c : Thread nD τ).loc main_arg9) :=
  (W6_of_ne m ρ c main_arg9 (by decide)).trans (at5_a9 m ρ c)
theorem at6_a10 : W6 m ρ c (Proc.devRef .tc main_arg10) = m ((c : Thread nD τ).loc main_arg10) :=
  ((W6_arr m ρ c 5).trans (((dat2 (V5 m ρ) c).arrAt_in 5 rfl _).trans (A_eq2 (V5 m ρ) c 5))).trans (at5_a10 m ρ c)
theorem at6_a11 : W6 m ρ c (Proc.devRef .tc main_arg11) = m ((c : Thread nD τ).loc main_arg11) :=
  (W6_of_ne m ρ c main_arg11 (by decide)).trans (at5_a11 m ρ c)
theorem at6_a12 : W6 m ρ c (Proc.devRef .tc main_arg12) = m ((c : Thread nD τ).loc main_arg12) :=
  (W6_of_ne m ρ c main_arg12 (by decide)).trans (at5_a12 m ρ c)
theorem at6_a13 : W6 m ρ c (Proc.devRef .tc main_arg13) = m ((c : Thread nD τ).loc main_arg13) :=
  (W6_of_ne m ρ c main_arg13 (by decide)).trans (at5_a13 m ρ c)
theorem at6_a14 : W6 m ρ c (Proc.devRef .tc main_arg14) = m ((c : Thread nD τ).loc main_arg14) :=
  (W6_of_ne m ρ c main_arg14 (by decide)).trans (at5_a14 m ρ c)
theorem at6_a15 : W6 m ρ c (Proc.devRef .tc main_arg15) = m ((c : Thread nD τ).loc main_arg15) :=
  (W6_of_ne m ρ c main_arg15 (by decide)).trans (at5_a15 m ρ c)
theorem at6_a16 : W6 m ρ c (Proc.devRef .tc main_arg16) = m ((c : Thread nD τ).loc main_arg16) :=
  (W6_of_ne m ρ c main_arg16 (by decide)).trans (at5_a16 m ρ c)
theorem at6_a17 : W6 m ρ c (Proc.devRef .tc main_arg17) = m ((c : Thread nD τ).loc main_arg17) :=
  (W6_of_ne m ρ c main_arg17 (by decide)).trans (at5_a17 m ρ c)

/-- After region 2. -/
theorem at6 : Carried m c (W6 m ρ c) :=
  ⟨at6_src m ρ c, at6_dst m ρ c, at6_deg m ρ c, at6_a0 m ρ c, at6_a1 m ρ c, at6_a2 m ρ c, at6_a3 m ρ c, at6_a4 m ρ c, at6_a5 m ρ c, at6_a6 m ρ c, at6_a7 m ρ c, at6_a8 m ρ c, at6_a9 m ρ c, at6_a10 m ρ c, at6_a11 m ρ c, at6_a12 m ρ c, at6_a13 m ρ c, at6_a14 m ρ c, at6_a15 m ρ c, at6_a16 m ρ c, at6_a17 m ρ c⟩

/-! ## Stretch 3 -/

theorem at7_src : (W7 m ρ c (Proc.devRef .tc main_v1) : IVec S1600000 32) = HostChain.src (m ((c : Thread nD τ).loc main_arg1)) :=
  (show W7 m ρ c (Proc.devRef .tc main_v1) = W6 m ρ c (Proc.devRef .tc main_v1) by untouched).trans (at6_src m ρ c)
theorem at7_dst : (W7 m ρ c (Proc.devRef .tc main_v3) : IVec S1600000 32) = HostChain.dst (m ((c : Thread nD τ).loc main_arg1)) :=
  (show W7 m ρ c (Proc.devRef .tc main_v3) = W6 m ρ c (Proc.devRef .tc main_v3) by untouched).trans (at6_dst m ρ c)
theorem at7_deg : (W7 m ρ c (Proc.devRef .tc main_v8) : FVec Ideal S100000x1 .f32) = HostChain.degCol (m ((c : Thread nD τ).loc main_arg1)) :=
  (show W7 m ρ c (Proc.devRef .tc main_v8) = W6 m ρ c (Proc.devRef .tc main_v8) by untouched).trans (at6_deg m ρ c)
theorem at7_a0 : W7 m ρ c (Proc.devRef .tc main_arg0) = m ((c : Thread nD τ).loc main_arg0) :=
  (show W7 m ρ c (Proc.devRef .tc main_arg0) = W6 m ρ c (Proc.devRef .tc main_arg0) by untouched).trans (at6_a0 m ρ c)
theorem at7_a1 : W7 m ρ c (Proc.devRef .tc main_arg1) = m ((c : Thread nD τ).loc main_arg1) :=
  (show W7 m ρ c (Proc.devRef .tc main_arg1) = W6 m ρ c (Proc.devRef .tc main_arg1) by untouched).trans (at6_a1 m ρ c)
theorem at7_a2 : W7 m ρ c (Proc.devRef .tc main_arg2) = m ((c : Thread nD τ).loc main_arg2) :=
  (show W7 m ρ c (Proc.devRef .tc main_arg2) = W6 m ρ c (Proc.devRef .tc main_arg2) by untouched).trans (at6_a2 m ρ c)
theorem at7_a3 : W7 m ρ c (Proc.devRef .tc main_arg3) = m ((c : Thread nD τ).loc main_arg3) :=
  (show W7 m ρ c (Proc.devRef .tc main_arg3) = W6 m ρ c (Proc.devRef .tc main_arg3) by untouched).trans (at6_a3 m ρ c)
theorem at7_a4 : W7 m ρ c (Proc.devRef .tc main_arg4) = m ((c : Thread nD τ).loc main_arg4) :=
  (show W7 m ρ c (Proc.devRef .tc main_arg4) = W6 m ρ c (Proc.devRef .tc main_arg4) by untouched).trans (at6_a4 m ρ c)
theorem at7_a5 : W7 m ρ c (Proc.devRef .tc main_arg5) = m ((c : Thread nD τ).loc main_arg5) :=
  (show W7 m ρ c (Proc.devRef .tc main_arg5) = W6 m ρ c (Proc.devRef .tc main_arg5) by untouched).trans (at6_a5 m ρ c)
theorem at7_a6 : W7 m ρ c (Proc.devRef .tc main_arg6) = m ((c : Thread nD τ).loc main_arg6) :=
  (show W7 m ρ c (Proc.devRef .tc main_arg6) = W6 m ρ c (Proc.devRef .tc main_arg6) by untouched).trans (at6_a6 m ρ c)
theorem at7_a7 : W7 m ρ c (Proc.devRef .tc main_arg7) = m ((c : Thread nD τ).loc main_arg7) :=
  (show W7 m ρ c (Proc.devRef .tc main_arg7) = W6 m ρ c (Proc.devRef .tc main_arg7) by untouched).trans (at6_a7 m ρ c)
theorem at7_a8 : W7 m ρ c (Proc.devRef .tc main_arg8) = m ((c : Thread nD τ).loc main_arg8) :=
  (show W7 m ρ c (Proc.devRef .tc main_arg8) = W6 m ρ c (Proc.devRef .tc main_arg8) by untouched).trans (at6_a8 m ρ c)
theorem at7_a9 : W7 m ρ c (Proc.devRef .tc main_arg9) = m ((c : Thread nD τ).loc main_arg9) :=
  (show W7 m ρ c (Proc.devRef .tc main_arg9) = W6 m ρ c (Proc.devRef .tc main_arg9) by untouched).trans (at6_a9 m ρ c)
theorem at7_a10 : W7 m ρ c (Proc.devRef .tc main_arg10) = m ((c : Thread nD τ).loc main_arg10) :=
  (show W7 m ρ c (Proc.devRef .tc main_arg10) = W6 m ρ c (Proc.devRef .tc main_arg10) by untouched).trans (at6_a10 m ρ c)
theorem at7_a11 : W7 m ρ c (Proc.devRef .tc main_arg11) = m ((c : Thread nD τ).loc main_arg11) :=
  (show W7 m ρ c (Proc.devRef .tc main_arg11) = W6 m ρ c (Proc.devRef .tc main_arg11) by untouched).trans (at6_a11 m ρ c)
theorem at7_a12 : W7 m ρ c (Proc.devRef .tc main_arg12) = m ((c : Thread nD τ).loc main_arg12) :=
  (show W7 m ρ c (Proc.devRef .tc main_arg12) = W6 m ρ c (Proc.devRef .tc main_arg12) by untouched).trans (at6_a12 m ρ c)
theorem at7_a13 : W7 m ρ c (Proc.devRef .tc main_arg13) = m ((c : Thread nD τ).loc main_arg13) :=
  (show W7 m ρ c (Proc.devRef .tc main_arg13) = W6 m ρ c (Proc.devRef .tc main_arg13) by untouched).trans (at6_a13 m ρ c)
theorem at7_a14 : W7 m ρ c (Proc.devRef .tc main_arg14) = m ((c : Thread nD τ).loc main_arg14) :=
  (show W7 m ρ c (Proc.devRef .tc main_arg14) = W6 m ρ c (Proc.devRef .tc main_arg14) by untouched).trans (at6_a14 m ρ c)
theorem at7_a15 : W7 m ρ c (Proc.devRef .tc main_arg15) = m ((c : Thread nD τ).loc main_arg15) :=
  (show W7 m ρ c (Proc.devRef .tc main_arg15) = W6 m ρ c (Proc.devRef .tc main_arg15) by untouched).trans (at6_a15 m ρ c)
theorem at7_a16 : W7 m ρ c (Proc.devRef .tc main_arg16) = m ((c : Thread nD τ).loc main_arg16) :=
  (show W7 m ρ c (Proc.devRef .tc main_arg16) = W6 m ρ c (Proc.devRef .tc main_arg16) by untouched).trans (at6_a16 m ρ c)
theorem at7_a17 : W7 m ρ c (Proc.devRef .tc main_arg17) = m ((c : Thread nD τ).loc main_arg17) :=
  (show W7 m ρ c (Proc.devRef .tc main_arg17) = W6 m ρ c (Proc.devRef .tc main_arg17) by untouched).trans (at6_a17 m ρ c)

/-- Before region 3. -/
theorem at7 : Carried m c (W7 m ρ c) :=
  ⟨at7_src m ρ c, at7_dst m ρ c, at7_deg m ρ c, at7_a0 m ρ c, at7_a1 m ρ c, at7_a2 m ρ c, at7_a3 m ρ c, at7_a4 m ρ c, at7_a5 m ρ c, at7_a6 m ρ c, at7_a7 m ρ c, at7_a8 m ρ c, at7_a9 m ρ c, at7_a10 m ρ c, at7_a11 m ρ c, at7_a12 m ρ c, at7_a13 m ρ c, at7_a14 m ρ c, at7_a15 m ρ c, at7_a16 m ρ c, at7_a17 m ρ c⟩

/-! ## Region 3 -/

theorem at8_src : (W8 m ρ c (Proc.devRef .tc main_v1) : IVec S1600000 32) = HostChain.src (m ((c : Thread nD τ).loc main_arg1)) :=
  (W8_of_ne m ρ c main_v1 (by decide)).trans (at7_src m ρ c)
theorem at8_dst : (W8 m ρ c (Proc.devRef .tc main_v3) : IVec S1600000 32) = HostChain.dst (m ((c : Thread nD τ).loc main_arg1)) :=
  (W8_of_ne m ρ c main_v3 (by decide)).trans (at7_dst m ρ c)
theorem at8_deg : (W8 m ρ c (Proc.devRef .tc main_v8) : FVec Ideal S100000x1 .f32) = HostChain.degCol (m ((c : Thread nD τ).loc main_arg1)) :=
  ((W8_arr m ρ c 1).trans (((dat3 (V7 m ρ) c).arrAt_in 1 rfl _).trans (A_eq3 (V7 m ρ) c 1))).trans (at7_deg m ρ c)
theorem at8_a0 : W8 m ρ c (Proc.devRef .tc main_arg0) = m ((c : Thread nD τ).loc main_arg0) :=
  (W8_of_ne m ρ c main_arg0 (by decide)).trans (at7_a0 m ρ c)
theorem at8_a1 : W8 m ρ c (Proc.devRef .tc main_arg1) = m ((c : Thread nD τ).loc main_arg1) :=
  (W8_of_ne m ρ c main_arg1 (by decide)).trans (at7_a1 m ρ c)
theorem at8_a2 : W8 m ρ c (Proc.devRef .tc main_arg2) = m ((c : Thread nD τ).loc main_arg2) :=
  (W8_of_ne m ρ c main_arg2 (by decide)).trans (at7_a2 m ρ c)
theorem at8_a3 : W8 m ρ c (Proc.devRef .tc main_arg3) = m ((c : Thread nD τ).loc main_arg3) :=
  (W8_of_ne m ρ c main_arg3 (by decide)).trans (at7_a3 m ρ c)
theorem at8_a4 : W8 m ρ c (Proc.devRef .tc main_arg4) = m ((c : Thread nD τ).loc main_arg4) :=
  (W8_of_ne m ρ c main_arg4 (by decide)).trans (at7_a4 m ρ c)
theorem at8_a5 : W8 m ρ c (Proc.devRef .tc main_arg5) = m ((c : Thread nD τ).loc main_arg5) :=
  (W8_of_ne m ρ c main_arg5 (by decide)).trans (at7_a5 m ρ c)
theorem at8_a6 : W8 m ρ c (Proc.devRef .tc main_arg6) = m ((c : Thread nD τ).loc main_arg6) :=
  (W8_of_ne m ρ c main_arg6 (by decide)).trans (at7_a6 m ρ c)
theorem at8_a7 : W8 m ρ c (Proc.devRef .tc main_arg7) = m ((c : Thread nD τ).loc main_arg7) :=
  (W8_of_ne m ρ c main_arg7 (by decide)).trans (at7_a7 m ρ c)
theorem at8_a8 : W8 m ρ c (Proc.devRef .tc main_arg8) = m ((c : Thread nD τ).loc main_arg8) :=
  (W8_of_ne m ρ c main_arg8 (by decide)).trans (at7_a8 m ρ c)
theorem at8_a9 : W8 m ρ c (Proc.devRef .tc main_arg9) = m ((c : Thread nD τ).loc main_arg9) :=
  (W8_of_ne m ρ c main_arg9 (by decide)).trans (at7_a9 m ρ c)
theorem at8_a10 : W8 m ρ c (Proc.devRef .tc main_arg10) = m ((c : Thread nD τ).loc main_arg10) :=
  (W8_of_ne m ρ c main_arg10 (by decide)).trans (at7_a10 m ρ c)
theorem at8_a11 : W8 m ρ c (Proc.devRef .tc main_arg11) = m ((c : Thread nD τ).loc main_arg11) :=
  ((W8_arr m ρ c 3).trans (((dat3 (V7 m ρ) c).arrAt_in 3 rfl _).trans (A_eq3 (V7 m ρ) c 3))).trans (at7_a11 m ρ c)
theorem at8_a12 : W8 m ρ c (Proc.devRef .tc main_arg12) = m ((c : Thread nD τ).loc main_arg12) :=
  (W8_of_ne m ρ c main_arg12 (by decide)).trans (at7_a12 m ρ c)
theorem at8_a13 : W8 m ρ c (Proc.devRef .tc main_arg13) = m ((c : Thread nD τ).loc main_arg13) :=
  ((W8_arr m ρ c 5).trans (((dat3 (V7 m ρ) c).arrAt_in 5 rfl _).trans (A_eq3 (V7 m ρ) c 5))).trans (at7_a13 m ρ c)
theorem at8_a14 : W8 m ρ c (Proc.devRef .tc main_arg14) = m ((c : Thread nD τ).loc main_arg14) :=
  (W8_of_ne m ρ c main_arg14 (by decide)).trans (at7_a14 m ρ c)
theorem at8_a15 : W8 m ρ c (Proc.devRef .tc main_arg15) = m ((c : Thread nD τ).loc main_arg15) :=
  (W8_of_ne m ρ c main_arg15 (by decide)).trans (at7_a15 m ρ c)
theorem at8_a16 : W8 m ρ c (Proc.devRef .tc main_arg16) = m ((c : Thread nD τ).loc main_arg16) :=
  (W8_of_ne m ρ c main_arg16 (by decide)).trans (at7_a16 m ρ c)
theorem at8_a17 : W8 m ρ c (Proc.devRef .tc main_arg17) = m ((c : Thread nD τ).loc main_arg17) :=
  (W8_of_ne m ρ c main_arg17 (by decide)).trans (at7_a17 m ρ c)

/-- After region 3. -/
theorem at8 : Carried m c (W8 m ρ c) :=
  ⟨at8_src m ρ c, at8_dst m ρ c, at8_deg m ρ c, at8_a0 m ρ c, at8_a1 m ρ c, at8_a2 m ρ c, at8_a3 m ρ c, at8_a4 m ρ c, at8_a5 m ρ c, at8_a6 m ρ c, at8_a7 m ρ c, at8_a8 m ρ c, at8_a9 m ρ c, at8_a10 m ρ c, at8_a11 m ρ c, at8_a12 m ρ c, at8_a13 m ρ c, at8_a14 m ρ c, at8_a15 m ρ c, at8_a16 m ρ c, at8_a17 m ρ c⟩

/-! ## Stretch 4 -/

theorem at9_src : (W9 m ρ c (Proc.devRef .tc main_v1) : IVec S1600000 32) = HostChain.src (m ((c : Thread nD τ).loc main_arg1)) :=
  (show W9 m ρ c (Proc.devRef .tc main_v1) = W8 m ρ c (Proc.devRef .tc main_v1) by untouched).trans (at8_src m ρ c)
theorem at9_dst : (W9 m ρ c (Proc.devRef .tc main_v3) : IVec S1600000 32) = HostChain.dst (m ((c : Thread nD τ).loc main_arg1)) :=
  (show W9 m ρ c (Proc.devRef .tc main_v3) = W8 m ρ c (Proc.devRef .tc main_v3) by untouched).trans (at8_dst m ρ c)
theorem at9_deg : (W9 m ρ c (Proc.devRef .tc main_v8) : FVec Ideal S100000x1 .f32) = HostChain.degCol (m ((c : Thread nD τ).loc main_arg1)) :=
  (show W9 m ρ c (Proc.devRef .tc main_v8) = W8 m ρ c (Proc.devRef .tc main_v8) by untouched).trans (at8_deg m ρ c)
theorem at9_a0 : W9 m ρ c (Proc.devRef .tc main_arg0) = m ((c : Thread nD τ).loc main_arg0) :=
  (show W9 m ρ c (Proc.devRef .tc main_arg0) = W8 m ρ c (Proc.devRef .tc main_arg0) by untouched).trans (at8_a0 m ρ c)
theorem at9_a1 : W9 m ρ c (Proc.devRef .tc main_arg1) = m ((c : Thread nD τ).loc main_arg1) :=
  (show W9 m ρ c (Proc.devRef .tc main_arg1) = W8 m ρ c (Proc.devRef .tc main_arg1) by untouched).trans (at8_a1 m ρ c)
theorem at9_a2 : W9 m ρ c (Proc.devRef .tc main_arg2) = m ((c : Thread nD τ).loc main_arg2) :=
  (show W9 m ρ c (Proc.devRef .tc main_arg2) = W8 m ρ c (Proc.devRef .tc main_arg2) by untouched).trans (at8_a2 m ρ c)
theorem at9_a3 : W9 m ρ c (Proc.devRef .tc main_arg3) = m ((c : Thread nD τ).loc main_arg3) :=
  (show W9 m ρ c (Proc.devRef .tc main_arg3) = W8 m ρ c (Proc.devRef .tc main_arg3) by untouched).trans (at8_a3 m ρ c)
theorem at9_a4 : W9 m ρ c (Proc.devRef .tc main_arg4) = m ((c : Thread nD τ).loc main_arg4) :=
  (show W9 m ρ c (Proc.devRef .tc main_arg4) = W8 m ρ c (Proc.devRef .tc main_arg4) by untouched).trans (at8_a4 m ρ c)
theorem at9_a5 : W9 m ρ c (Proc.devRef .tc main_arg5) = m ((c : Thread nD τ).loc main_arg5) :=
  (show W9 m ρ c (Proc.devRef .tc main_arg5) = W8 m ρ c (Proc.devRef .tc main_arg5) by untouched).trans (at8_a5 m ρ c)
theorem at9_a6 : W9 m ρ c (Proc.devRef .tc main_arg6) = m ((c : Thread nD τ).loc main_arg6) :=
  (show W9 m ρ c (Proc.devRef .tc main_arg6) = W8 m ρ c (Proc.devRef .tc main_arg6) by untouched).trans (at8_a6 m ρ c)
theorem at9_a7 : W9 m ρ c (Proc.devRef .tc main_arg7) = m ((c : Thread nD τ).loc main_arg7) :=
  (show W9 m ρ c (Proc.devRef .tc main_arg7) = W8 m ρ c (Proc.devRef .tc main_arg7) by untouched).trans (at8_a7 m ρ c)
theorem at9_a8 : W9 m ρ c (Proc.devRef .tc main_arg8) = m ((c : Thread nD τ).loc main_arg8) :=
  (show W9 m ρ c (Proc.devRef .tc main_arg8) = W8 m ρ c (Proc.devRef .tc main_arg8) by untouched).trans (at8_a8 m ρ c)
theorem at9_a9 : W9 m ρ c (Proc.devRef .tc main_arg9) = m ((c : Thread nD τ).loc main_arg9) :=
  (show W9 m ρ c (Proc.devRef .tc main_arg9) = W8 m ρ c (Proc.devRef .tc main_arg9) by untouched).trans (at8_a9 m ρ c)
theorem at9_a10 : W9 m ρ c (Proc.devRef .tc main_arg10) = m ((c : Thread nD τ).loc main_arg10) :=
  (show W9 m ρ c (Proc.devRef .tc main_arg10) = W8 m ρ c (Proc.devRef .tc main_arg10) by untouched).trans (at8_a10 m ρ c)
theorem at9_a11 : W9 m ρ c (Proc.devRef .tc main_arg11) = m ((c : Thread nD τ).loc main_arg11) :=
  (show W9 m ρ c (Proc.devRef .tc main_arg11) = W8 m ρ c (Proc.devRef .tc main_arg11) by untouched).trans (at8_a11 m ρ c)
theorem at9_a12 : W9 m ρ c (Proc.devRef .tc main_arg12) = m ((c : Thread nD τ).loc main_arg12) :=
  (show W9 m ρ c (Proc.devRef .tc main_arg12) = W8 m ρ c (Proc.devRef .tc main_arg12) by untouched).trans (at8_a12 m ρ c)
theorem at9_a13 : W9 m ρ c (Proc.devRef .tc main_arg13) = m ((c : Thread nD τ).loc main_arg13) :=
  (show W9 m ρ c (Proc.devRef .tc main_arg13) = W8 m ρ c (Proc.devRef .tc main_arg13) by untouched).trans (at8_a13 m ρ c)
theorem at9_a14 : W9 m ρ c (Proc.devRef .tc main_arg14) = m ((c : Thread nD τ).loc main_arg14) :=
  (show W9 m ρ c (Proc.devRef .tc main_arg14) = W8 m ρ c (Proc.devRef .tc main_arg14) by untouched).trans (at8_a14 m ρ c)
theorem at9_a15 : W9 m ρ c (Proc.devRef .tc main_arg15) = m ((c : Thread nD τ).loc main_arg15) :=
  (show W9 m ρ c (Proc.devRef .tc main_arg15) = W8 m ρ c (Proc.devRef .tc main_arg15) by untouched).trans (at8_a15 m ρ c)
theorem at9_a16 : W9 m ρ c (Proc.devRef .tc main_arg16) = m ((c : Thread nD τ).loc main_arg16) :=
  (show W9 m ρ c (Proc.devRef .tc main_arg16) = W8 m ρ c (Proc.devRef .tc main_arg16) by untouched).trans (at8_a16 m ρ c)
theorem at9_a17 : W9 m ρ c (Proc.devRef .tc main_arg17) = m ((c : Thread nD τ).loc main_arg17) :=
  (show W9 m ρ c (Proc.devRef .tc main_arg17) = W8 m ρ c (Proc.devRef .tc main_arg17) by untouched).trans (at8_a17 m ρ c)

/-- Before region 4. -/
theorem at9 : Carried m c (W9 m ρ c) :=
  ⟨at9_src m ρ c, at9_dst m ρ c, at9_deg m ρ c, at9_a0 m ρ c, at9_a1 m ρ c, at9_a2 m ρ c, at9_a3 m ρ c, at9_a4 m ρ c, at9_a5 m ρ c, at9_a6 m ρ c, at9_a7 m ρ c, at9_a8 m ρ c, at9_a9 m ρ c, at9_a10 m ρ c, at9_a11 m ρ c, at9_a12 m ρ c, at9_a13 m ρ c, at9_a14 m ρ c, at9_a15 m ρ c, at9_a16 m ρ c, at9_a17 m ρ c⟩

end Cert.KernelIdeal.Fold

end
-- ==== Proof.KernelNet.lean ====
/-
  The kernel program's network as one function of the argument arrays.

  A layer takes the edge array, a feature array, the two 128 × 128 matrices and the bias; its
  neighbour sums and degrees are the graph's host chain of the edge array and the features.  The
  first layer of each branch is rectified.  The head takes the two branches, the left and right
  halves of the 128 × 256 matrix, the 16 × 128 matrix and the two biases.  Each layer equals its
  quotient arrangement, and the head its joined arrangement (the spec's two laws); what is added
  here is only how the bookkeeping arrays are read: the degree column at row `r` is the degree of
  node `r`, a bias made a one-row array reads the bias, and the two column cuts of the 128 × 256
  matrix are its left and right halves.
-/
import proofs.«104871_j37958920962736_2_alg».proof.Proof.HostChain
import proofs.«104871_j37958920962736_2_alg».proof.Proof.GraphNetSpec
import Idealize.ShloMosaic.Lib.Pipeline.Value
import Idealize.ShloMosaic.Lib.ValueIdx
import Idealize.ShloMosaic.Lib.ValueLayout

noncomputable section

namespace Cert.KernelIdeal.Net

open Cert.KernelIdeal Cert.KernelIdeal.Gen Cert.KernelIdeal.HostChain Idealize.ShloMosaic Idealize.ShloMosaic.ValueIdx
open Cert.GraphNet

/-- A 128-entry bias as a one-row array. -/
def biasRow (b : FVec Ideal S128 .f32) : FVec Ideal S1x128 .f32 := shapeCast S1x128 b shapeCasts_S128_S1x128

/-- A 16-entry bias as a one-row array. -/
def biasRow16 (b : FVec Ideal S16 .f32) : FVec Ideal S1x16 .f32 := shapeCast S1x16 b shapeCasts_S16_S1x16

/-- The left 128 columns of the 128 × 256 matrix, cut on the host. -/
def leftW (W1 : FVec Ideal S128x256 .f32) : FVec Ideal S128x128 .f32 :=
  extractStridedSlice S128x128 ![0, 0] W1 slices_S128x256_S128x128_0_0

/-- Its right 128 columns. -/
def rightW (W1 : FVec Ideal S128x256 .f32) : FVec Ideal S128x128 .f32 :=
  extractStridedSlice S128x128 ![0, 128] W1 slices_S128x256_S128x128_0_128

/-- One layer, not rectified. -/
def layer (e : Edges) (f : FVec Ideal S100000x128 .f32) (Wl : FVec Ideal S128x128 .f32) (b : FVec Ideal S128 .f32)
    (Wr : FVec Ideal S128x128 .f32) : FVec Ideal S100000x128 .f32 :=
  ofRows (layerRecip (rows (agg e f)) (col (degCol e)) (rows f) (rows Wl) (row (biasRow b)) (rows Wr))

/-- One layer, rectified. -/
def layerRelu (e : Edges) (f : FVec Ideal S100000x128 .f32) (Wl : FVec Ideal S128x128 .f32) (b : FVec Ideal S128 .f32)
    (Wr : FVec Ideal S128x128 .f32) : FVec Ideal S100000x128 .f32 :=
  ofRows (relu (layerRecip (rows (agg e f)) (col (degCol e)) (rows f) (rows Wl) (row (biasRow b)) (rows Wr)))

/-- The head. -/
def head (L G : FVec Ideal S100000x128 .f32) (W1 : FVec Ideal S128x256 .f32) (b1 : FVec Ideal S128 .f32)
    (W2 : FVec Ideal S16x128 .f32) (b2 : FVec Ideal S16 .f32) : FVec Ideal S100000x16 .f32 :=
  ofRows (headTwo (rows L) (rows G) (rows (leftW W1)) (rows (rightW W1)) (row (biasRow b1)) (rows W2) (row (biasRow16 b2)))

/-- The whole network: two branches of two layers each, then the head. -/
def net (x0 : FVec Ideal S100000x128 .f32) (x1 : HostChain.Edges) (x2 : FVec Ideal S128x128 .f32) (x3 : FVec Ideal S128 .f32) (x4 x5 : FVec Ideal S128x128 .f32) (x6 : FVec Ideal S128 .f32) (x7 x8 : FVec Ideal S128x128 .f32) (x9 : FVec Ideal S128 .f32) (x10 x11 : FVec Ideal S128x128 .f32) (x12 : FVec Ideal S128 .f32) (x13 : FVec Ideal S128x128 .f32) (x14 : FVec Ideal S128x256 .f32) (x15 : FVec Ideal S128 .f32) (x16 : FVec Ideal S16x128 .f32) (x17 : FVec Ideal S16 .f32) : FVec Ideal S100000x16 .f32 :=
  head (layer x1 (layerRelu x1 x0 x2 x3 x4) x5 x6 x7) (layer x1 (layerRelu x1 x0 x8 x9 x10) x11 x12 x13) x14 x15 x16 x17

/-! ## The bookkeeping arrays, read -/

/-- The degree column at row `r` is the degree of node `r`. -/
theorem col_degCol (e : Edges) (r : Fin 100000) : col (degCol e) r = deg e (ix1 r) :=
  broadcastInDim_apply _ bcast_S100000_S100000x1_0 (deg e) (ix2 r (0 : Fin 1)) (ix1 r) (fun a => match a with
    | ⟨0, _⟩ => by show r.val = if (100000 : Nat) = 1 then 0 else r.val; rw [if_neg (by decide)])

/-- A bias made a one-row array reads the bias. -/
theorem row_biasRow (b : FVec Ideal S128 .f32) (j : Fin 128) : row (biasRow b) j = b (ix1 j) :=
  shapeCast_a_1a_apply b shapeCasts_S128_S1x128 (0 : Fin 1) j

theorem row_biasRow16 (b : FVec Ideal S16 .f32) (o : Fin 16) : row (biasRow16 b) o = b (ix1 o) :=
  shapeCast_a_1a_apply b shapeCasts_S16_S1x16 (0 : Fin 1) o

/-- The left cut of the 128 × 256 matrix is its left half. -/
theorem rows_leftW (W1 : FVec Ideal S128x256 .f32) : rows (leftW W1) = leftHalf (rows W1) := by
  funext k q
  exact slice2_axis1_apply 0 W1 slices_S128x256_S128x128_0_0 k q ⟨q.val, by have := q.isLt; omega⟩ (Nat.zero_add _).symm

/-- The right cut is its right half. -/
theorem rows_rightW (W1 : FVec Ideal S128x256 .f32) : rows (rightW W1) = rightHalf (rows W1) := by
  funext k q
  exact slice2_axis1_apply 128 W1 slices_S128x256_S128x128_0_128 k q ⟨128 + q.val, by have := q.isLt; omega⟩ rfl

/-! ## The two rearrangements -/

/-- A layer in its quotient arrangement, the degree and the bias read directly. -/
theorem layer_eq_quot (e : Edges) (f : FVec Ideal S100000x128 .f32) (Wl : FVec Ideal S128x128 .f32) (b : FVec Ideal S128 .f32)
    (Wr : FVec Ideal S128x128 .f32) :
    layer e f Wl b Wr
      = ofRows (layerQuot (rows (agg e f)) (fun r => deg e (ix1 r)) (rows f) (rows Wl) (fun j => b (ix1 j)) (rows Wr)) := by
  unfold layer
  rw [layerRecip_eq_layerQuot, show col (degCol e) = fun r => deg e (ix1 r) from funext (col_degCol e),
    show row (biasRow b) = fun j => b (ix1 j) from funext (row_biasRow b)]

theorem layerRelu_eq_quot (e : Edges) (f : FVec Ideal S100000x128 .f32) (Wl : FVec Ideal S128x128 .f32) (b : FVec Ideal S128 .f32)
    (Wr : FVec Ideal S128x128 .f32) :
    layerRelu e f Wl b Wr
      = ofRows (relu (layerQuot (rows (agg e f)) (fun r => deg e (ix1 r)) (rows f) (rows Wl) (fun j => b (ix1 j)) (rows Wr))) := by
  unfold layerRelu
  rw [layerRecip_eq_layerQuot, show col (degCol e) = fun r => deg e (ix1 r) from funext (col_degCol e),
    show row (biasRow b) = fun j => b (ix1 j) from funext (row_biasRow b)]

/-- The head in its joined arrangement. -/
theorem head_eq_joined (L G : FVec Ideal S100000x128 .f32) (W1 : FVec Ideal S128x256 .f32) (b1 : FVec Ideal S128 .f32)
    (W2 : FVec Ideal S16x128 .f32) (b2 : FVec Ideal S16 .f32) :
    head L G W1 b1 W2 b2
      = ofRows (headJoined (joinCols (rows L) (rows G)) (rows W1) (fun k => b1 (ix1 k)) (rows W2) (fun o => b2 (ix1 o))) := by
  unfold head
  rw [headJoined_eq_headTwo, rows_leftW, rows_rightW, show row (biasRow b1) = fun k => b1 (ix1 k) from funext (row_biasRow b1),
    show row (biasRow16 b2) = fun o => b2 (ix1 o) from funext (row_biasRow16 b2)]

end Cert.KernelIdeal.Net

end
-- ==== Proof.FoldValues.lean ====
/-
  The result buffer's final contents, as the network of the launch arrays.

  Walking the ten segments forwards.  Before region 0 the first stretch has written the neighbour
  sums of the input features and the first bias as a row; the region's output is the first branch's
  first layer.  The next stretch gathers and scatter-adds THAT array, so region 1's output is the
  second layer of it.  Regions 2 and 3 do the same for the second branch from the input features
  again.  Neither branch's output is written by anything later, so both reach the last region,
  whose stretch has cut the 128 × 256 matrix in two and made rows of the two biases; its output —
  the result buffer — is the head of the two branches.
-/
import proofs.«104871_j37958920962736_2_alg».proof.Proof.Gen.KernelIdeal.Frame
import proofs.«104871_j37958920962736_2_alg».proof.Proof.LayerArray0
import proofs.«104871_j37958920962736_2_alg».proof.Proof.LayerArray1
import proofs.«104871_j37958920962736_2_alg».proof.Proof.LayerArray2
import proofs.«104871_j37958920962736_2_alg».proof.Proof.LayerArray3
import proofs.«104871_j37958920962736_2_alg».proof.Proof.HeadArray
import proofs.«104871_j37958920962736_2_alg».proof.Proof.FoldCarried
import proofs.«104871_j37958920962736_2_alg».proof.Proof.KernelNet
import Idealize.ShloMosaic.Lib.StableHlo.Run

set_option maxRecDepth 16384

noncomputable section

namespace Cert.KernelIdeal.Fold

open Cert.KernelIdeal Cert.KernelIdeal.Gen Cert.KernelIdeal.HostChain Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-! ## Region 0 -/

set_option maxHeartbeats 1600000 in
theorem sums0 : (V1 m ρ c main_v18 : FVec Ideal S100000x128 .f32) = agg (m ((c : Thread nD τ).loc main_arg1)) (m ((c : Thread nD τ).loc main_arg0)) := by
  dsimp only [V1, W1, hostOps0]; after_results_simp <;> rfl

theorem bias0 : (V1 m ρ c main_v19 : FVec Ideal S1x128 .f32) = Net.biasRow (m ((c : Thread nD τ).loc main_arg3)) := by
  dsimp only [V1, W1, hostOps0]; after_results <;> rfl

/-- Region 0's output array. -/
theorem out0 : W2 m ρ c (Proc.devRef .tc main_v20) = (Net.layerRelu (m ((c : Thread nD τ).loc main_arg1)) (m ((c : Thread nD τ).loc main_arg0)) (m ((c : Thread nD τ).loc main_arg2)) (m ((c : Thread nD τ).loc main_arg3)) (m ((c : Thread nD τ).loc main_arg4))) := by
  refine (W2_arr m ρ c 6).trans ((LayerArray0.final (V1 m ρ) c).trans ?_)
  unfold LayerArray0.layer Net.layerRelu
  rw [sums0 m ρ c, bias0 m ρ c, show V1 m ρ c main_v8 = degCol (m ((c : Thread nD τ).loc main_arg1)) from (at1 m ρ c).deg,
    show V1 m ρ c main_arg0 = m ((c : Thread nD τ).loc main_arg0) from (at1 m ρ c).a0,
    show V1 m ρ c main_arg2 = m ((c : Thread nD τ).loc main_arg2) from (at1 m ρ c).a2,
    show V1 m ρ c main_arg4 = m ((c : Thread nD τ).loc main_arg4) from (at1 m ρ c).a4]

/-- The first layer's output is still there after the next stretch. -/
theorem first1_at3 : W3 m ρ c (Proc.devRef .tc main_v20) = (Net.layerRelu (m ((c : Thread nD τ).loc main_arg1)) (m ((c : Thread nD τ).loc main_arg0)) (m ((c : Thread nD τ).loc main_arg2)) (m ((c : Thread nD τ).loc main_arg3)) (m ((c : Thread nD τ).loc main_arg4))) :=
  (show W3 m ρ c (Proc.devRef .tc main_v20) = W2 m ρ c (Proc.devRef .tc main_v20) by untouched).trans (out0 m ρ c)

/-! ## Region 1 -/

set_option maxHeartbeats 1600000 in
theorem sums1 : (V3 m ρ c main_v30 : FVec Ideal S100000x128 .f32) = agg (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) := by
  dsimp only [V3, W3, hostOps1]
  after_results_simp
  rw [out0 m ρ c, (at2 m ρ c).src, (at2 m ρ c).dst]
  rfl

theorem bias1 : (V3 m ρ c main_v31 : FVec Ideal S1x128 .f32) = Net.biasRow (m ((c : Thread nD τ).loc main_arg6)) := by
  dsimp only [V3, W3, hostOps1]
  after_results
  rw [(at2 m ρ c).a6]
  rfl

/-- Region 1's output array. -/
theorem out1 : W4 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine (W4_arr m ρ c 6).trans ((LayerArray1.final (V3 m ρ) c).trans ?_)
  unfold LayerArray1.layer Net.layer
  rw [sums1 m ρ c, bias1 m ρ c, show V3 m ρ c main_v8 = degCol (m ((c : Thread nD τ).loc main_arg1)) from (at3 m ρ c).deg,
    show V3 m ρ c main_v20 = (Net.layerRelu (m ((c : Thread nD τ).loc main_arg1)) (m ((c : Thread nD τ).loc main_arg0)) (m ((c : Thread nD τ).loc main_arg2)) (m ((c : Thread nD τ).loc main_arg3)) (m ((c : Thread nD τ).loc main_arg4))) from first1_at3 m ρ c,
    show V3 m ρ c main_arg5 = m ((c : Thread nD τ).loc main_arg5) from (at3 m ρ c).a5,
    show V3 m ρ c main_arg7 = m ((c : Thread nD τ).loc main_arg7) from (at3 m ρ c).a7]

/-! ## Region 2 -/

set_option maxHeartbeats 1600000 in
theorem sums2 : (V5 m ρ c main_v42 : FVec Ideal S100000x128 .f32) = agg (m ((c : Thread nD τ).loc main_arg1)) (m ((c : Thread nD τ).loc main_arg0)) := by
  dsimp only [V5, W5, hostOps2]
  after_results_simp
  rw [(at4 m ρ c).a0, (at4 m ρ c).src, (at4 m ρ c).dst]
  rfl

theorem bias2 : (V5 m ρ c main_v43 : FVec Ideal S1x128 .f32) = Net.biasRow (m ((c : Thread nD τ).loc main_arg9)) := by
  dsimp only [V5, W5, hostOps2]
  after_results
  rw [(at4 m ρ c).a9]
  rfl

/-- Region 2's output array. -/
theorem out2 : W6 m ρ c (Proc.devRef .tc main_v44) = (Net.layerRelu (m ((c : Thread nD τ).loc main_arg1)) (m ((c : Thread nD τ).loc main_arg0)) (m ((c : Thread nD τ).loc main_arg8)) (m ((c : Thread nD τ).loc main_arg9)) (m ((c : Thread nD τ).loc main_arg10))) := by
  refine (W6_arr m ρ c 6).trans ((LayerArray2.final (V5 m ρ) c).trans ?_)
  unfold LayerArray2.layer Net.layerRelu
  rw [sums2 m ρ c, bias2 m ρ c, show V5 m ρ c main_v8 = degCol (m ((c : Thread nD τ).loc main_arg1)) from (at5 m ρ c).deg,
    show V5 m ρ c main_arg0 = m ((c : Thread nD τ).loc main_arg0) from (at5 m ρ c).a0,
    show V5 m ρ c main_arg8 = m ((c : Thread nD τ).loc main_arg8) from (at5 m ρ c).a8,
    show V5 m ρ c main_arg10 = m ((c : Thread nD τ).loc main_arg10) from (at5 m ρ c).a10]

/-- The second branch's first layer is still there after the next stretch. -/
theorem first2_at7 : W7 m ρ c (Proc.devRef .tc main_v44) = (Net.layerRelu (m ((c : Thread nD τ).loc main_arg1)) (m ((c : Thread nD τ).loc main_arg0)) (m ((c : Thread nD τ).loc main_arg8)) (m ((c : Thread nD τ).loc main_arg9)) (m ((c : Thread nD τ).loc main_arg10))) :=
  (show W7 m ρ c (Proc.devRef .tc main_v44) = W6 m ρ c (Proc.devRef .tc main_v44) by untouched).trans (out2 m ρ c)

/-! ## Region 3 -/

set_option maxHeartbeats 1600000 in
theorem sums3 : (V7 m ρ c main_v54 : FVec Ideal S100000x128 .f32) = agg (m ((c : Thread nD τ).loc main_arg1)) (Net.layerRelu (m ((c : Thread nD τ).loc main_arg1)) (m ((c : Thread nD τ).loc main_arg0)) (m ((c : Thread nD τ).loc main_arg8)) (m ((c : Thread nD τ).loc main_arg9)) (m ((c : Thread nD τ).loc main_arg10))) := by
  dsimp only [V7, W7, hostOps3]
  after_results_simp
  rw [out2 m ρ c, (at6 m ρ c).src, (at6 m ρ c).dst]
  rfl

theorem bias3 : (V7 m ρ c main_v55 : FVec Ideal S1x128 .f32) = Net.biasRow (m ((c : Thread nD τ).loc main_arg12)) := by
  dsimp only [V7, W7, hostOps3]
  after_results
  rw [(at6 m ρ c).a12]
  rfl

/-- Region 3's output array. -/
theorem out3 : W8 m ρ c (Proc.devRef .tc main_v56) = (Net.layer (m ((c : Thread nD τ).loc main_arg1)) (Net.layerRelu (m ((c : Thread nD τ).loc main_arg1)) (m ((c : Thread nD τ).loc main_arg0)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13))) := by
  refine (W8_arr m ρ c 6).trans ((LayerArray3.final (V7 m ρ) c).trans ?_)
  unfold LayerArray3.layer Net.layer
  rw [sums3 m ρ c, bias3 m ρ c, show V7 m ρ c main_v8 = degCol (m ((c : Thread nD τ).loc main_arg1)) from (at7 m ρ c).deg,
    show V7 m ρ c main_v44 = (Net.layerRelu (m ((c : Thread nD τ).loc main_arg1)) (m ((c : Thread nD τ).loc main_arg0)) (m ((c : Thread nD τ).loc main_arg8)) (m ((c : Thread nD τ).loc main_arg9)) (m ((c : Thread nD τ).loc main_arg10))) from first2_at7 m ρ c,
    show V7 m ρ c main_arg11 = m ((c : Thread nD τ).loc main_arg11) from (at7 m ρ c).a11,
    show V7 m ρ c main_arg13 = m ((c : Thread nD τ).loc main_arg13) from (at7 m ρ c).a13]

/-! ## The two branches reach the last region -/

theorem branch1_at5 : W5 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (show W5 m ρ c (Proc.devRef .tc main_v32) = W4 m ρ c (Proc.devRef .tc main_v32) by untouched).trans (out1 m ρ c)
theorem branch1_at6 : W6 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (W6_of_ne m ρ c main_v32 (by decide)).trans (branch1_at5 m ρ c)
theorem branch1_at7 : W7 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (show W7 m ρ c (Proc.devRef .tc main_v32) = W6 m ρ c (Proc.devRef .tc main_v32) by untouched).trans (branch1_at6 m ρ c)
theorem branch1_at8 : W8 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (W8_of_ne m ρ c main_v32 (by decide)).trans (branch1_at7 m ρ c)
theorem branch1_at9 : W9 m ρ c (Proc.devRef .tc main_v32) = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (show W9 m ρ c (Proc.devRef .tc main_v32) = W8 m ρ c (Proc.devRef .tc main_v32) by untouched).trans (branch1_at8 m ρ c)
theorem branch2_at9 : W9 m ρ c (Proc.devRef .tc main_v56) = (Net.layer (m ((c : Thread nD τ).loc main_arg1)) (Net.layerRelu (m ((c : Thread nD τ).loc main_arg1)) (m ((c : Thread nD τ).loc main_arg0)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13))) := (show W9 m ρ c (Proc.devRef .tc main_v56) = W8 m ρ c (Proc.devRef .tc main_v56) by untouched).trans (out3 m ρ c)

/-! ## Region 4 -/

theorem left9 : (V9 m ρ c main_v57 : FVec Ideal S128x128 .f32) = Net.leftW (m ((c : Thread nD τ).loc main_arg14)) := by
  dsimp only [V9, W9, hostOps4]
  after_results
  rw [(at8 m ρ c).a14]
  rfl

theorem right9 : (V9 m ρ c main_v58 : FVec Ideal S128x128 .f32) = Net.rightW (m ((c : Thread nD τ).loc main_arg14)) := by
  dsimp only [V9, W9, hostOps4]
  after_results
  rw [(at8 m ρ c).a14]
  rfl

theorem bias9 : (V9 m ρ c main_v59 : FVec Ideal S1x128 .f32) = Net.biasRow (m ((c : Thread nD τ).loc main_arg15)) := by
  dsimp only [V9, W9, hostOps4]
  after_results
  rw [(at8 m ρ c).a15]
  rfl

theorem lastBias9 : (V9 m ρ c main_v60 : FVec Ideal S1x16 .f32) = Net.biasRow16 (m ((c : Thread nD τ).loc main_arg17)) := by
  dsimp only [V9, W9, hostOps4]
  after_results
  rw [(at8 m ρ c).a17]
  rfl

/-- THE RESULT BUFFER at the last boundary: the network of the launch arrays. -/
theorem result : W10 m ρ c (Proc.devRef .tc main_v61)
    = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W10_arr m ρ c 7).trans ((HeadArray.final (V9 m ρ) c).trans ?_)
  unfold HeadArray.head Net.net Net.head
  rw [show V9 m ρ c main_v32 = (Net.layer (m ((c : Thread nD τ).loc main_arg1)) (Net.layerRelu (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) from branch1_at9 m ρ c,
    show V9 m ρ c main_v56 = (Net.layer (m ((c : Thread nD τ).loc main_arg1)) (Net.layerRelu (m ((c : Thread nD τ).loc main_arg1)) (m ((c : Thread nD τ).loc main_arg0)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13))) from branch2_at9 m ρ c,
    left9 m ρ c, right9 m ρ c, bias9 m ρ c, lastBias9 m ρ c,
    show V9 m ρ c main_arg16 = m ((c : Thread nD τ).loc main_arg16) from (at9 m ρ c).a16]

end Cert.KernelIdeal.Fold

end
-- ==== Proof.RefLayers.lean ====
/-
  The reference's host expressions as the network's functions.

  One layer of the reference is, as host operations: the neighbour sums divided entrywise by the
  degree clamped at one and broadcast along the columns; the product with the transposed left
  matrix; the bias row broadcast down the rows, added; the product of the features with the
  transposed right matrix, added.  Read at entry `(r, j)`: a product against a transposed matrix is
  the sum over `k` of the left operand's `(r, k)` times the untransposed matrix's `(j, k)`; the
  broadcast degree reads the degree of node `r`; the broadcast bias reads entry `j`.  That is the
  layer's quotient arrangement.  The head joins the two branches side by side (column `q` of the
  join is column `q` of the left branch for `q < 128`, column `q − 128` of the right one otherwise),
  multiplies by the transposed 128 × 256 matrix, adds the bias, rectifies, multiplies by the
  transposed 16 × 128 matrix and adds the last bias: the head's joined arrangement.
-/
import proofs.«104871_j37958920962736_2_alg».proof.Proof.Gen.ReferenceIdeal.Read
import proofs.«104871_j37958920962736_2_alg».proof.Proof.GraphNetSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-! ## Host products against a transposed matrix, at an entry -/

/-- `X · Wᵀ` for a 128 × 128 matrix: entry `(r, j)` is `∑ₖ X[r,k] · W[j,k]`. -/
theorem mulT128_apply (X : FVec Ideal S100000x128 .f32) (W : FVec Ideal S128x128 .f32) (r : Fin 100000) (j : Fin 128) :
    Host.dotGeneral dot_S100000x128_S128x128_S100000x128_1_0_0_1_n_n none X (transpose S128x128 [1, 0] W transposes_S128x128_S128x128_1_0) (ix2 r j)
      = ∑ k : Fin 128, X (ix2 r k) * W (ix2 j k) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs_main_v24_0 _ _).trans hk
    | ⟨1, _⟩ => exact rhs_main_v24_1 _ _)
  rw [el, er, transpose_ix2_apply]

/-- `X · Wᵀ` for a 128 × 256 matrix: entry `(r, j)` is the sum over the 256 columns. -/
theorem mulT256_apply (X : FVec Ideal S100000x256 .f32) (W : FVec Ideal S128x256 .f32) (r : Fin 100000) (j : Fin 128) :
    Host.dotGeneral dot_S100000x256_S256x128_S100000x128_1_0_0_1_n_n none X (transpose S256x128 [1, 0] W transposes_S128x256_S256x128_1_0) (ix2 r j)
      = ∑ k : Fin 256, X (ix2 r k) * W (ix2 j k) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 r j) ((contrEquiv1 dot_S100000x256_S256x128_S100000x128_1_0_0_1_n_n 256 rfl rfl).symm k) = ix2 r k := funext fun a => Fin.ext (by
    match a with
    | ⟨0, _⟩ => exact lhs_main_v116_0 _ _
    | ⟨1, _⟩ => exact (lhs_main_v116_1 _ _).trans hk)
  have er : dot_S100000x256_S256x128_S100000x128_1_0_0_1_n_n.rhsIdx (ix2 r j) ((contrEquiv1 dot_S100000x256_S256x128_S100000x128_1_0_0_1_n_n 256 rfl rfl).symm k) = ix2 k j := funext fun a => Fin.ext (by
    match a with
    | ⟨0, _⟩ => exact (rhs_main_v116_0 _ _).trans hk
    | ⟨1, _⟩ => exact rhs_main_v116_1 _ _)
  rw [el, er, transpose_ix2_apply]

/-- `X · Wᵀ` for a 16 × 128 matrix: entry `(r, o)` is `∑ₖ X[r,k] · W[o,k]`. -/
theorem mulT16_apply (X : FVec Ideal S100000x128 .f32) (W : FVec Ideal S16x128 .f32) (r : Fin 100000) (j : Fin 16) :
    Host.dotGeneral dot_S100000x128_S128x16_S100000x16_1_0_0_1_n_n none X (transpose S128x16 [1, 0] W transposes_S16x128_S128x16_1_0) (ix2 r j)
      = ∑ k : Fin 128, X (ix2 r k) * W (ix2 j k) := by
  simp only [Host.dotGeneral]
  rw [Ideal.dotGeneral_apply, ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have el : dot_S100000x128_S128x16_S100000x16_1_0_0_1_n_n.lhsIdx (ix2 r j) ((contrEquiv1 dot_S100000x128_S128x16_S100000x16_1_0_0_1_n_n 128 rfl rfl).symm k) = ix2 r k := funext fun a => Fin.ext (by
    match a with
    | ⟨0, _⟩ => exact lhs_main_v122_0 _ _
    | ⟨1, _⟩ => exact (lhs_main_v122_1 _ _).trans hk)
  have er : dot_S100000x128_S128x16_S100000x16_1_0_0_1_n_n.rhsIdx (ix2 r j) ((contrEquiv1 dot_S100000x128_S128x16_S100000x16_1_0_0_1_n_n 128 rfl rfl).symm k) = ix2 k j := funext fun a => Fin.ext (by
    match a with
    | ⟨0, _⟩ => exact (rhs_main_v122_0 _ _).trans hk
    | ⟨1, _⟩ => exact rhs_main_v122_1 _ _)
  rw [el, er, transpose_ix2_apply]

/-! ## Broadcasts, at an entry -/

/-- A per-node value made a column and broadcast along the 128 columns reads the node's value. -/
theorem node_bcast_apply (d : FVec Ideal S100000 .f32) (r : Fin 100000) (k : Fin 128) :
    broadcastInDim S100000x128 ![0, 1] bcast_S100000x1_S100000x128_0_1
      (broadcastInDim S100000x1 ![0] bcast_S100000_S100000x1_0 d) (ix2 r k) = d (ix1 r) :=
  (broadcastInDim_apply _ bcast_S100000x1_S100000x128_0_1 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans
  (broadcastInDim_apply _ bcast_S100000_S100000x1_0 d (ix2 r (0 : Fin 1)) (ix1 r) (fun a => match a with
    | ⟨0, _⟩ => by show r.val = if (100000 : Nat) = 1 then 0 else r.val; rw [if_neg (by decide)]))

/-- A 128-entry bias made a row and broadcast down the rows reads its entry `j`. -/
theorem bias128_bcast_apply (b : FVec Ideal S128 .f32) (r : Fin 100000) (j : Fin 128) :
    broadcastInDim S100000x128 ![0, 1] bcast_S1x128_S100000x128_0_1
      (broadcastInDim S1x128 ![1] bcast_S128_S1x128_1 b) (ix2 r j) = b (ix1 j) :=
  (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ bcast_S128_S1x128_1 b (ix2 (0 : Fin 1) j) (ix1 j) (fun a => match a with
    | ⟨0, _⟩ => by show j.val = if (128 : Nat) = 1 then 0 else j.val; rw [if_neg (by decide)]))

/-- A 16-entry bias made a row and broadcast down the rows reads its entry `o`. -/
theorem bias16_bcast_apply (b : FVec Ideal S16 .f32) (r : Fin 100000) (o : Fin 16) :
    broadcastInDim S100000x16 ![0, 1] bcast_S1x16_S100000x16_0_1
      (broadcastInDim S1x16 ![1] bcast_S16_S1x16_1 b) (ix2 r o) = b (ix1 o) :=
  (broadcastInDim_apply _ bcast_S1x16_S100000x16_0_1 _ (ix2 r o) (ix2 (0 : Fin 1) o) (fun a => match a with
    | ⟨0, _⟩ => by show 0 = if (1 : Nat) = 1 then 0 else r.val; rw [if_pos rfl]
    | ⟨1, _⟩ => by show o.val = if (16 : Nat) = 1 then 0 else o.val; rw [if_neg (by decide)])).trans
  (broadcastInDim_apply _ bcast_S16_S1x16_1 b (ix2 (0 : Fin 1) o) (ix1 o) (fun a => match a with
    | ⟨0, _⟩ => by show o.val = if (16 : Nat) = 1 then 0 else o.val; rw [if_neg (by decide)]))

/-- The scalar one broadcast over the nodes. -/
theorem one_bcast_apply (i : S100000.Idx) :
    broadcastInDim S100000 ![] bcast_S_S100000 (constant (F := Ideal) S_ .f32 0x3F800000#32) i = 1 :=
  (broadcastInDim_apply _ bcast_S_S100000 _ i (fun a => a.elim0) (fun a => a.elim0)).trans Ideal.ofBits_one_f32

/-- The scalar zero broadcast over an activation array. -/
theorem zero_bcast_apply (i : S100000x128.Idx) :
    broadcastInDim S100000x128 ![] bcast_S_S100000x128 (constant (F := Ideal) S_ .f32 0x00000000#32) i = 0 :=
  (broadcastInDim_apply _ bcast_S_S100000x128 _ i (fun a => a.elim0) (fun a => a.elim0)).trans Ideal.ofBits_zero_f32

/-! ## One layer -/

/-- A layer as the reference writes it. -/
def refLayer (S : FVec Ideal S100000x128 .f32) (d : FVec Ideal S100000 .f32) (X : FVec Ideal S100000x128 .f32)
    (Wl : FVec Ideal S128x128 .f32) (b : FVec Ideal S128 .f32) (Wr : FVec Ideal S128x128 .f32) : FVec Ideal S100000x128 .f32 :=
  addf (addf (Host.dotGeneral dot_S100000x128_S128x128_S100000x128_1_0_0_1_n_n none
        (Host.divf S (broadcastInDim S100000x128 ![0, 1] bcast_S100000x1_S100000x128_0_1
          (broadcastInDim S100000x1 ![0] bcast_S100000_S100000x1_0
            (maximumf d (broadcastInDim S100000 ![] bcast_S_S100000 (constant S_ .f32 0x3F800000#32))))))
        (transpose S128x128 [1, 0] Wl transposes_S128x128_S128x128_1_0))
      (broadcastInDim S100000x128 ![0, 1] bcast_S1x128_S100000x128_0_1 (broadcastInDim S1x128 ![1] bcast_S128_S1x128_1 b)))
    (Host.dotGeneral dot_S100000x128_S128x128_S100000x128_1_0_0_1_n_n none X (transpose S128x128 [1, 0] Wr transposes_S128x128_S128x128_1_0))

/-- It is the layer's quotient arrangement of the arrays' rows. -/
theorem refLayer_eq (S : FVec Ideal S100000x128 .f32) (d : FVec Ideal S100000 .f32) (X : FVec Ideal S100000x128 .f32)
    (Wl : FVec Ideal S128x128 .f32) (b : FVec Ideal S128 .f32) (Wr : FVec Ideal S128x128 .f32) :
    refLayer S d X Wl b Wr = GraphNet.ofRows (GraphNet.layerQuot (GraphNet.rows S) (fun r => d (ix1 r)) (GraphNet.rows X)
      (GraphNet.rows Wl) (fun j => b (ix1 j)) (GraphNet.rows Wr)) := by
  funext i
  obtain ⟨r, j, rfl⟩ : ∃ (r : Fin 100000) (j : Fin 128), i = ix2 r j := ⟨i 0, i 1, eq_ix2 i⟩
  unfold refLayer
  rw [addf_apply, addf_apply, mulT128_apply, mulT128_apply, bias128_bcast_apply]
  show _ = GraphNet.layerQuot _ _ _ _ _ _ r j
  unfold GraphNet.layerQuot
  refine congrArg₂ (· + ·) (congrArg₂ (· + ·) (Finset.sum_congr rfl fun k _ => ?_) rfl) rfl
  show Ideal.div (S (ix2 r k)) (broadcastInDim S100000x128 ![0, 1] bcast_S100000x1_S100000x128_0_1
      (broadcastInDim S100000x1 ![0] bcast_S100000_S100000x1_0
        (maximumf d (broadcastInDim S100000 ![] bcast_S_S100000 (constant S_ .f32 0x3F800000#32)))) (ix2 r k)) * Wl (ix2 j k) = _
  rw [node_bcast_apply, maximumf_apply, one_bcast_apply]
  rfl

/-- The rectifier as the reference writes it. -/
theorem refRelu_eq (f : Fin 100000 → Fin 128 → EReal) :
    maximumf (F := Ideal) (φ := .f32) (GraphNet.ofRows f : FVec Ideal S100000x128 .f32)
      (broadcastInDim S100000x128 ![] bcast_S_S100000x128 (constant (F := Ideal) S_ .f32 0x00000000#32))
      = (GraphNet.ofRows (GraphNet.relu f) : FVec Ideal S100000x128 .f32) := by
  funext i
  rw [maximumf_apply, zero_bcast_apply]
  rfl

/-! ## The head -/

/-- The two branches side by side, at an entry. -/
theorem join_apply (L G : FVec Ideal S100000x128 .f32) (r : Fin 100000) (q : Fin 256) :
    concatenate S100000x256 1 [⟨S100000x128, L⟩, ⟨S100000x128, G⟩] concatenates_S100000x128_S100000x128_S100000x256_d1 (ix2 r q)
      = GraphNet.joinCols (GraphNet.rows L) (GraphNet.rows G) r q := by
  unfold GraphNet.joinCols
  by_cases hq : q.val < 128
  · rw [dif_pos hq]
    exact concatenate_pair_apply_left 1 L G concatenates_S100000x128_S100000x128_S100000x256_d1 (ix2 r q) rfl (ix2 r ⟨q.val, hq⟩)
      (fun b => match b with
        | ⟨0, _⟩ => rfl
        | ⟨1, _⟩ => rfl)
  · rw [dif_neg hq]
    exact concatenate_pair_apply_right 1 L G concatenates_S100000x128_S100000x128_S100000x256_d1 (ix2 r q) rfl rfl
      (ix2 r ⟨q.val - 128, by have := q.isLt; omega⟩)
      (fun b => match b with
        | ⟨0, _⟩ => fun _ => rfl
        | ⟨1, _⟩ => fun h => absurd rfl h)
      (by show q.val - 128 + 128 = q.val; omega)

/-- The head as the reference writes it. -/
def refHead (L G : FVec Ideal S100000x128 .f32) (W1 : FVec Ideal S128x256 .f32) (b1 : FVec Ideal S128 .f32)
    (W2 : FVec Ideal S16x128 .f32) (b2 : FVec Ideal S16 .f32) : FVec Ideal S100000x16 .f32 :=
  addf (Host.dotGeneral dot_S100000x128_S128x16_S100000x16_1_0_0_1_n_n none
      (maximumf
        (addf (Host.dotGeneral dot_S100000x256_S256x128_S100000x128_1_0_0_1_n_n none
            (concatenate S100000x256 1 [⟨S100000x128, L⟩, ⟨S100000x128, G⟩] concatenates_S100000x128_S100000x128_S100000x256_d1)
            (transpose S256x128 [1, 0] W1 transposes_S128x256_S256x128_1_0))
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32)))
      (transpose S128x16 [1, 0] W2 transposes_S16x128_S128x16_1_0))
    (broadcastInDim S100000x16 ![0, 1] bcast_S1x16_S100000x16_0_1 (broadcastInDim S1x16 ![1] bcast_S16_S1x16_1 b2))

/-- It is the head's joined arrangement of the arrays' rows. -/
theorem refHead_eq (L G : FVec Ideal S100000x128 .f32) (W1 : FVec Ideal S128x256 .f32) (b1 : FVec Ideal S128 .f32)
    (W2 : FVec Ideal S16x128 .f32) (b2 : FVec Ideal S16 .f32) :
    refHead L G W1 b1 W2 b2 = GraphNet.ofRows (GraphNet.headJoined (GraphNet.joinCols (GraphNet.rows L) (GraphNet.rows G))
      (GraphNet.rows W1) (fun k => b1 (ix1 k)) (GraphNet.rows W2) (fun o => b2 (ix1 o))) := by
  funext i
  obtain ⟨r, o, rfl⟩ : ∃ (r : Fin 100000) (o : Fin 16), i = ix2 r o := ⟨i 0, i 1, eq_ix2 i⟩
  unfold refHead
  rw [addf_apply, mulT16_apply, bias16_bcast_apply]
  show _ = GraphNet.headJoined _ _ _ _ _ r o
  unfold GraphNet.headJoined
  refine congrArg (· + b2 (ix1 o)) (Finset.sum_congr rfl fun k _ => ?_)
  rw [maximumf_apply, addf_apply, mulT256_apply, bias128_bcast_apply, zero_bcast_apply]
  refine congrArg (fun y => max (y + b1 (ix1 k)) 0 * W2 (ix2 o k)) (Finset.sum_congr rfl fun q _ => ?_)
  rw [join_apply]
  rfl

end Cert.ReferenceIdeal.RefValue

end
-- ==== Proof.Bridge.lean ====
/-
  The reference's result is the kernel side's network of the same arguments.

  Stage by stage the reference's term is, by unfolding alone, its host expression of a layer (or of
  the head) applied to the graph's host chain — the two programs print the same gather, the same
  scatter-adds and the same index arithmetic, so the reference's neighbour sums and degrees ARE the
  chain's.  A layer's host expression is the layer's quotient arrangement and the head's is its
  joined arrangement; the kernel side's layers and head equal those by the spec's two laws
  (`s · (1 / c) = s / c` off zero with the bias moved, and the 256-column sum split in two).
-/
import proofs.«104871_j37958920962736_2_alg».proof.Proof.Gen.ReferenceIdeal.Read
import proofs.«104871_j37958920962736_2_alg».proof.Proof.RefLayers
import proofs.«104871_j37958920962736_2_alg».proof.Proof.KernelNet

noncomputable section

namespace Cert.Bridge

open Cert.ReferenceIdeal Cert.ReferenceIdeal.Gen Cert.ReferenceIdeal.Read Cert.ReferenceIdeal.RefValue
open Cert.KernelIdeal.Net Cert.KernelIdeal.HostChain Idealize.ShloMosaic

/-- The first branch's first layer. -/
theorem branch1_layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = layerRelu x1 x0 x2 x3 x4 := by
  have h : val_main_v31 (F := Ideal) x0 x1 x2 x3 x4
      = maximumf (F := Ideal) (φ := .f32) (refLayer (agg x1 x0) (deg x1) x0 x2 x3 x4) (broadcastInDim S100000x128 ![] bcast_S_S100000x128 (constant (F := Ideal) S_ .f32 0x00000000#32)) := rfl
  rw [h, refLayer_eq, refRelu_eq, layerRelu_eq_quot]

/-- The first branch's second layer, of whatever the first layer gave. -/
theorem branch1_layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v58 (F := Ideal) x0 x1 x2 x3 x4 x5 x6 x7 = layer x1 (val_main_v31 (F := Ideal) x0 x1 x2 x3 x4) x5 x6 x7 := by
  have h : val_main_v58 (F := Ideal) x0 x1 x2 x3 x4 x5 x6 x7
      = refLayer (agg x1 (val_main_v31 (F := Ideal) x0 x1 x2 x3 x4)) (deg x1) (val_main_v31 (F := Ideal) x0 x1 x2 x3 x4) x5 x6 x7 := rfl
  rw [h, refLayer_eq, layer_eq_quot]

/-- The second branch's first layer. -/
theorem branch2_layer1 (x0 : (⟨S100000x128, .f32⟩ : BufTy).Contents (Elt Ideal)) (x1 : (⟨S2x1600000, .i32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v86 (F := Ideal) x0 x1 x8 x9 x10 = layerRelu x1 x0 x8 x9 x10 := by
  have h : val_main_v86 (F := Ideal) x0 x1 x8 x9 x10
      = maximumf (F := Ideal) (φ := .f32) (refLayer (agg x1 x0) (deg x1) x0 x8 x9 x10) (broadcastInDim S100000x128 ![] bcast_S_S100000x128 (constant (F := Ideal) S_ .f32 0x00000000#32)) := rfl
  rw [h, refLayer_eq, refRelu_eq, layerRelu_eq_quot]

/-- The second branch's second layer. -/
theorem branch2_layer2 (x0 : (⟨S100000x128, .f32⟩ : BufTy).Contents (Elt Ideal)) (x1 : (⟨S2x1600000, .i32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) :
    val_main_v113 (F := Ideal) x0 x1 x8 x9 x10 x11 x12 x13 = layer x1 (val_main_v86 (F := Ideal) x0 x1 x8 x9 x10) x11 x12 x13 := by
  have h : val_main_v113 (F := Ideal) x0 x1 x8 x9 x10 x11 x12 x13
      = refLayer (agg x1 (val_main_v86 (F := Ideal) x0 x1 x8 x9 x10)) (deg x1) (val_main_v86 (F := Ideal) x0 x1 x8 x9 x10) x11 x12 x13 := rfl
  rw [h, refLayer_eq, layer_eq_quot]

/-- THE REFERENCE'S RESULT is the kernel side's network of the same eighteen arrays. -/
theorem reference_eq_net (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128x256, .f32⟩ : BufTy).Contents (Elt Ideal)) (x15 : (⟨S128, .f32⟩ : BufTy).Contents (Elt Ideal)) (x16 : (⟨S16x128, .f32⟩ : BufTy).Contents (Elt Ideal)) (x17 : (⟨S16, .f32⟩ : BufTy).Contents (Elt Ideal)) :
    val_main_v125 (F := Ideal) x0 x1 x2 x3 x4 x5 x6 x7 x8 x9 x10 x11 x12 x13 x14 x15 x16 x17 = net x0 x1 x2 x3 x4 x5 x6 x7 x8 x9 x10 x11 x12 x13 x14 x15 x16 x17 := by
  have h : val_main_v125 (F := Ideal) x0 x1 x2 x3 x4 x5 x6 x7 x8 x9 x10 x11 x12 x13 x14 x15 x16 x17
      = refHead (val_main_v58 (F := Ideal) x0 x1 x2 x3 x4 x5 x6 x7) (val_main_v113 (F := Ideal) x0 x1 x8 x9 x10 x11 x12 x13) x14 x15 x16 x17 := rfl
  rw [h, refHead_eq, ← head_eq_joined, branch1_layer2, branch2_layer2, branch1_layer1, branch2_layer1]
  rfl

end Cert.Bridge

end
-- ==== Proof.lean ====
/-
  Two programs for one two-branch graph network, equal over the extended reals.

  Both programs compute, for 100000 nodes with 128 features and 1600000 edges: in each of two
  branches two convolution layers — per node the mean of its in-neighbours' features (their sum
  over the in-degree clamped at one) times a matrix, plus a bias, plus the node's own features
  times another matrix, the first layer rectified — and then a two-layer head over the two
  branches joined.  The neighbour sums and degrees are the same host gather and scatter-adds in
  both.  They differ in three places: the kernel scales the sums by the reciprocal `1 / max deg 1`
  where the reference divides by `max deg 1`; it adds the layer's bias last, not between the two
  products; and it multiplies the two branches by the two halves of the head's first matrix and
  adds, where the reference joins the branches into 256 columns and multiplies once.  Off zero a
  quotient of extended reals IS the product with the inverse and the clamped degree is at least
  one, so the first holds for every extended real; the other two are commutativity and
  associativity of a finite sum.  No entry needs to be finite: the precondition is never opened.

  The frames of the two kernel programs are the generated ones; the reference's frame is its
  generated run with the result dropped; the idealization rewrote nothing, so `preserves` is
  trivial.  For `algebraic`: the kernel program's run ends with the result buffer at the last
  boundary's valuation (the run with the result kept), which is the network of the launch arrays
  (the fold, region by region); the reference's run ends with its result at its composed term,
  which is the same network of the same arrays (the bridge).
-/
import proofs.«104871_j37958920962736_2_alg».proof.Defs
import proofs.«104871_j37958920962736_2_alg».proof.Proof.Gen.Kernel
import proofs.«104871_j37958920962736_2_alg».proof.Proof.Gen.Kernel.Frame
import proofs.«104871_j37958920962736_2_alg».proof.Proof.Gen.KernelIdeal
import proofs.«104871_j37958920962736_2_alg».proof.Proof.Gen.KernelIdeal.Frame
import proofs.«104871_j37958920962736_2_alg».proof.Proof.Gen.ReferenceIdeal
import proofs.«104871_j37958920962736_2_alg».proof.Proof.Gen.ReferenceIdeal.Run
import proofs.«104871_j37958920962736_2_alg».proof.Proof.Gen.ReferenceIdeal.Read
import proofs.«104871_j37958920962736_2_alg».proof.Proof.Gen.Pre_finite_inputs
import proofs.«104871_j37958920962736_2_alg».proof.Proof.KernelRun
import proofs.«104871_j37958920962736_2_alg».proof.Proof.FoldValues
import proofs.«104871_j37958920962736_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the network of the (agreeing) argument arrays. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Fold.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.ReferenceIdeal.Read.val_main_v125_eq, Cert.Bridge.reference_eq_net, e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
